-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S16x11 : S_.BroadcastsInDim S16x11 (![] : Fin 0 → Fin S16x11.rank)
  reducesTo_S16x11_S_d0_1 : S16x11.ReducesTo [0, 1] S_
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  main_v128

def fn_part6 {F : FTy → Type} [FloatOps F] (main_arg21 : FVec F S256 .f32) (main_arg22 : FVec F S256x256 .f32) (main_arg23 : FVec F S256 .f32) (main_arg24 : FVec F S256x256 .f32) (main_arg25 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg24
  fn_part7 (F := F) main_arg25 main_v118 main_v119

def fn_part5 {F : FTy → Type} [FloatOps F] (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16x64x256x256 .f32) (main_arg1 : FVec F S16x11 .f32) (main_arg2 : FVec F S11x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S16x11 .f32 := Host.absf main_arg1
  let main_cst_0 : FVec F S_ .f32 := constant S_ .f32 0x7F800000#32
  let main_v5 : FVec F S16x11 .f32 := broadcastInDim S16x11 ![] bcast_S_S16x11 main_cst_0
  let main_v6 : IVec S16x11 1 := cmpf .olt main_v4 main_v5
  let main_c_1 : IVec S_ 1 := constantI S_ 1 1#1
  let main_v7 : IVec S_ 1 := (fun x v => Host.reduce IntOp.andi x v reducesTo_S16x11_S_d0_1 h_S_) main_v6 main_c_1
  let main_v8 : IVec S_ 1 := andi main_v3 main_v7
  let main_v9 : FVec F S11x256 .f32 := Host.absf main_arg2
  let main_cst_2 : FVec F S_ .f32 := constant S_ .f32 0x7F800000#32
  let main_v10 : FVec F S11x256 .f32 := broadcastInDim S11x256 ![] bcast_S_S11x256 main_cst_2
  let main_v11 : IVec S11x256 1 := cmpf .olt main_v9 main_v10
  let main_c_3 : IVec S_ 1 := constantI S_ 1 1#1
  let main_v12 : IVec S_ 1 := (fun x v => Host.reduce IntOp.andi x v reducesTo_S11x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S1x256 : Shape := ⟨2, ![1, 256]⟩
abbrev S16x1x256 : Shape := ⟨3, ![16, 1, 256]⟩
abbrev S16x256 : Shape := ⟨2, ![16, 256]⟩
abbrev S1x32x256x256 : Shape := ⟨4, ![1, 32, 256, 256]⟩
abbrev S1x1x256 : Shape := ⟨3, ![1, 1, 256]⟩
abbrev S32x256x256 : Shape := ⟨3, ![32, 256, 256]⟩
abbrev S32 : Shape := ⟨1, ![32]⟩
abbrev S32x1x1 : Shape := ⟨3, ![32, 1, 1]⟩
abbrev S256x1 : Shape := ⟨2, ![256, 1]⟩
abbrev S1x256x1 : Shape := ⟨3, ![1, 256, 1]⟩

abbrev nBuf : Space → Nat
  | .hbm => 41
  | .vmem => 35
  | .smem => 0
  | _ => 0

abbrev bufTy : (tb : Table) → Fin (tcTables nBuf tb) → BufTy
  | .hbm, ⟨0, _⟩ => ⟨S16x64x256x256, .f32⟩
  | .hbm, ⟨1, _⟩ => ⟨S16x11, .f32⟩
  | .hbm, ⟨2, _⟩ => ⟨S11x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S16x1x256, .f32⟩
  | .hbm, ⟨39, _⟩ => ⟨S16x1x256, .f32⟩
  | .hbm, ⟨40, _⟩ => ⟨S16x64x256x256, .f32⟩
  | .local _ .vmem, ⟨0, _⟩ => ⟨S16x11, .f32⟩
  | .local _ .vmem, ⟨1, _⟩ => ⟨S11x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S16x1x256, .f32⟩
  | .local _ .vmem, ⟨26, _⟩ => ⟨S16x1x256, .f32⟩
  | .local _ .vmem, ⟨27, _⟩ => ⟨S1x32x256x256, .f32⟩
  | .local _ .vmem, ⟨28, _⟩ => ⟨S1x32x256x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x32x256x256, .f32⟩
  | .local _ .vmem, ⟨34, _⟩ => ⟨S1x32x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12_0 : Ref sig .tc := ⟨.hbm, 38, rfl⟩
abbrev main_call0_v12_1 : Ref sig .tc := ⟨.hbm, 39, rfl⟩
abbrev main_v0 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34

abbrev nD : Nat := 1
abbrev τ : Topo := Topo.v7x

variable {F : FTy → Type} [FloatOps F]

abbrev grid0 : Pipeline.Grid := .none

abbrev stage0_0 : Fin 1 → Memref sig .tc .vmem S16x11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S16x1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S16x1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨1, ![32], ![false]⟩

def cc1_transform_0 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 2 → Memref sig .tc .vmem S1x32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  inb_S16x11_S16x11_0_0 : ∀ a, (![0, 0] : Fin 2 → Nat) a + S16x11.size a ≤ S16x11.size a
  h_S16x11 : 0 < S16x11.numel
  inb_S11x256_S11x256_0_0 : ∀ a, (![0, 0] : Fin 2 → Nat) a + S11x256.size a ≤ S11x256.size a
  h_S11x256 : 0 < S11x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S256x256_S256x256_0_0 : ∀ a, (![0, 0] : Fin 2 → Nat) a + S256x256.size a ≤ S256x256.size a
  h_S256x256 : 0 < S256x256.numel
  shapeCasts_S16x256_S16x1x256 : S16x256.ShapeCasts S16x1x256
  inb_S16x1x256_S16x1x256_0_0_0 : ∀ a, (![0, 0, 0] : Fin 3 → Nat) a + S16x1x256.size a ≤ S16x1x256.size a
  h_S16x1x256 : 0 < S16x1x256.numel
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  reduces_S32x256x256_S32 : S32x256x256.Reduces [1, 2] S32
  shapeCasts_S32_S32x1x1 : S32.ShapeCasts S32x1x1
  broadcasts_S32x1x1_S32x256x256 : S32x1x1.Broadcasts S32x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  transposes_S1x256_p1_0_S256x1 : S1x256.Transposes [1, 0] S256x1
  shapeCasts_S256x1_S1x256x1 : S256x1.ShapeCasts S1x256x1
  broadcasts_S1x256x1_S32x256x256 : S1x256x1.Broadcasts S32x256x256
  shapeCasts_S32x256x256_S1x32x256x256 : S32x256x256.ShapeCasts S1x32x256x256
  dot_S16x11_S11x256_S16x256_1_0_0_1_n_n_wf : DotDims.WF S16x11 S11x256 S16x256 [1] [0] [0] [1] [] []
  dot_S16x256_S256x256_S16x256_1_0_0_1_n_n_wf : DotDims.WF S16x256 S256x256 S16x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256x256.size a ≤ S16x64x256x256.size a
  hwx1_0 : ∀ i : grid1.Coords, EltTy.bits .f32 = 32 ∨ (Rect.block (s := S16x64x256x256) S1x32x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S16x1x256.size a
  hwx1_1 : ∀ i : grid1.Coords, EltTy.bits .f32 = 32 ∨ (Rect.block (s := S16x1x256) S1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S16x1x256.size a
  hwx1_2 : ∀ i : grid1.Coords, EltTy.bits .f32 = 32 ∨ (Rect.block (s := S16x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x256x256.size a ≤ S16x64x256x256.size a
  hwx1_3 : ∀ i : grid1.Coords, EltTy.bits .f32 = 32 ∨ (Rect.block (s := S16x64x256x256) S1x32x256x256.size (cc1_transform_3 i) (hinb1_3 i)).WholeWords (EltTy.packing .f32)

variable [Facts₀]

def dot_S16x11_S11x256_S16x256_1_0_0_1_n_n : DotDims S16x11 S11x256 S16x256 where
  lhsContracting := [1]
  rhsContracting := [0]
  lhsNonContracting := [0]
  rhsNonContracting := [1]
  lhsBatch := []
  rhsBatch := []
  wf := dot_S16x11_S11x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_call0_v1) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_call0_v2) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_call0_v3) false false (stage0_8 0) (sem0_8 0) (Memref.isWhole_whole _) (hstage0_8 0)

abbrev win0_9 : Pipeline.Window sig grid0 :=
  Pipeline.Window.whole (Memref.whole main_arg10) false false (stage0_9 0) (sem0_9 0) (Memref.isWhole_whole _) (hstage0_9 0)

abbrev win0_10 : Pipeline.Window sig grid0 :=
  Pipeline.Window.whole (Memref.whole main_call0_v4) false false (stage0_10 0) (sem0_10 0) (Memref.isWhole_whole _) (hstage0_10 0)

abbrev win0_11 : Pipeline.Window sig grid0 :=
  Pipeline.Window.whole (Memref.whole main_arg12) false false (stage0_11 0) (sem0_11 0) (Memref.isWhole_whole _) (hstage0_11 0)

abbrev win0_12 : Pipeline.Window sig grid0 :=
  Pipeline.Window.whole (Memref.whole main_call0_v5) false false (stage0_12 0) (sem0_12 0) (Memref.isWhole_whole _) (hstage0_12 0)

abbrev win0_13 : Pipeline.Window sig grid0 :=
  Pipeline.Window.whole (Memref.whole main_arg14) false false (stage0_13 0) (sem0_13 0) (Memref.isWhole_whole _) (hstage0_13 0)

abbrev win0_14 : Pipeline.Window sig grid0 :=
  Pipeline.Window.whole (Memref.whole main_call0_v6) false false (stage0_14 0) (sem0_14 0) (Memref.isWhole_whole _) (hstage0_14 0)

abbrev win0_15 : Pipeline.Window sig grid0 :=
  Pipeline.Window.whole (Memref.whole main_arg16) false false (stage0_15 0) (sem0_15 0) (Memref.isWhole_whole _) (hstage0_15 0)

abbrev win0_16 : Pipeline.Window sig grid0 :=
  Pipeline.Window.whole (Memref.whole main_call0_v7) false false (stage0_16 0) (sem0_16 0) (Memref.isWhole_whole _) (hstage0_16 0)

abbrev win0_17 : Pipeline.Window sig grid0 :=
  Pipeline.Window.whole (Memref.whole main_arg18) false false (stage0_17 0) (sem0_17 0) (Memref.isWhole_whole _) (hstage0_17 0)

abbrev win0_18 : Pipeline.Window sig grid0 :=
  Pipeline.Window.whole (Memref.whole main_call0_v8) false false (stage0_18 0) (sem0_18 0) (Memref.isWhole_whole _) (hstage0_18 0)

abbrev win0_19 : Pipeline.Window sig grid0 :=
  Pipeline.Window.whole (Memref.whole main_arg20) false false (stage0_19 0) (sem0_19 0) (Memref.isWhole_whole _) (hstage0_19 0)

abbrev win0_20 : Pipeline.Window sig grid0 :=
  Pipeline.Window.whole (Memref.whole main_call0_v9) false false (stage0_20 0) (sem0_20 0) (Memref.isWhole_whole _) (hstage0_20 0)

abbrev win0_21 : Pipeline.Window sig grid0 :=
  Pipeline.Window.whole (Memref.whole main_arg22) false false (stage0_21 0) (sem0_21 0) (Memref.isWhole_whole _) (hstage0_21 0)

abbrev win0_22 : Pipeline.Window sig grid0 :=
  Pipeline.Window.whole (Memref.whole main_call0_v10) false false (stage0_22 0) (sem0_22 0) (Memref.isWhole_whole _) (hstage0_22 0)

abbrev win0_23 : Pipeline.Window sig grid0 :=
  Pipeline.Window.whole (Memref.whole main_arg24) false false (stage0_23 0) (sem0_23 0) (Memref.isWhole_whole _) (hstage0_23 0)

abbrev win0_24 : Pipeline.Window sig grid0 :=
  Pipeline.Window.whole (Memref.whole main_call0_v11) false false (stage0_24 0) (sem0_24 0) (Memref.isWhole_whole _) (hstage0_24 0)

abbrev win0_25 : Pipeline.Window sig grid0 :=
  Pipeline.Window.whole (Memref.whole main_call0_v12_0) true false (stage0_25 0) (sem0_25 0) (Memref.isWhole_whole _) (hstage0_25 0)

abbrev win0_26 : Pipeline.Window sig grid0 :=
  Pipeline.Window.whole (Memref.whole main_call0_v12_1) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_arg0) S1x32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12_0) S1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12_1) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x32x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S_ : Shape := ⟨0, ![]⟩
abbrev S16x64 : Shape := ⟨2, ![16, 64]⟩
abbrev S16x64x1x1 : Shape := ⟨4, ![16, 64, 1, 1]⟩
abbrev S16x256 : Shape := ⟨2, ![16, 256]⟩
abbrev S1x256 : Shape := ⟨2, ![1, 256]⟩
abbrev S16x1x256x1 : Shape := ⟨4, ![16, 1, 256, 1]⟩

abbrev nBuf : Space → Nat
  | .hbm => 136
  | .vmem => 0
  | .smem => 0
  | _ => 0

abbrev hbmTy0_0 (i : Nat) : BufTy := match i % 128 with
  | 0 => ⟨S16x64x256x256, .f32⟩
  | 1 => ⟨S16x11, .f32⟩
  | 2 => ⟨S11x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256x256, .f32⟩
  | 25 => ⟨S256, .f32⟩
  | 26 => ⟨S_, .f32⟩
  | 27 => ⟨S16x64, .f32⟩
  | 28 => ⟨S16x64x1x1, .f32⟩
  | 29 => ⟨S_, .f32⟩
  | 30 => ⟨S16x64x1x1, .f32⟩
  | 31 => ⟨S16x64x1x1, .f32⟩
  | 32 => ⟨S16x64x256x256, .f32⟩
  | 33 => ⟨S16x64x256x256, .f32⟩
  | 34 => ⟨S16x64x256x256, .f32⟩
  | 35 => ⟨S_, .f32⟩
  | 36 => ⟨S16x64, .f32⟩
  | 37 => ⟨S16x64x1x1, .f32⟩
  | 38 => ⟨S_, .f32⟩
  | 39 => ⟨S16x64x1x1, .f32⟩
  | 40 => ⟨S16x64x1x1, .f32⟩
  | 41 => ⟨S16x64x256x256, .f32⟩
  | 42 => ⟨S16x64x256x256, .f32⟩
  | 43 => ⟨S_, .f32⟩
  | 44 => ⟨S16x64x1x1, .f32⟩
  | 45 => ⟨S16x64x1x1, .f32⟩
  | 46 => ⟨S16x64x1x1, .f32⟩
  | 47 => ⟨S16x64x256x256, .f32⟩
  | 48 => ⟨S16x64x256x256, .f32⟩
  | 49 => ⟨S16x256, .f32⟩
  | 50 => ⟨S1x256, .f32⟩
  | 51 => ⟨S16x256, .f32⟩
  | 52 => ⟨S16x256, .f32⟩
  | 53 => ⟨S_, .f32⟩
  | 54 => ⟨S16x256, .f32⟩
  | 55 => ⟨S16x256, .f32⟩
  | 56 => ⟨S16x256, .f32⟩
  | 57 => ⟨S1x256, .f32⟩
  | 58 => ⟨S16x256, .f32⟩
  | 59 => ⟨S16x256, .f32⟩
  | 60 => ⟨S_, .f32⟩
  | 61 => ⟨S16x256, .f32⟩
  | 62 => ⟨S16x256, .f32⟩
  | 63 => ⟨S16x256, .f32⟩
  | 64 => ⟨S1x256, .f32⟩
  | 65 => ⟨S16x256, .f32⟩
  | 66 => ⟨S16x256, .f32⟩
  | 67 => ⟨S_, .f32⟩
  | 68 => ⟨S16x256, .f32⟩
  | 69 => ⟨S16x256, .f32⟩
  | 70 => ⟨S16x256, .f32⟩
  | 71 => ⟨S1x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S1x256, .f32⟩
  | 79 => ⟨S16x256, .f32⟩
  | 80 => ⟨S16x256, .f32⟩
  | 81 => ⟨S_, .f32⟩
  | 82 => ⟨S16x256, .f32⟩
  | 83 => ⟨S16x256, .f32⟩
  | 84 => ⟨S16x256, .f32⟩
  | 85 => ⟨S1x256, .f32⟩
  | 86 => ⟨S16x256, .f32⟩
  | 87 => ⟨S16x256, .f32⟩
  | 88 => ⟨S_, .f32⟩
  | 89 => ⟨S16x256, .f32⟩
  | 90 => ⟨S16x256, .f32⟩
  | 91 => ⟨S16x256, .f32⟩
  | 92 => ⟨S1x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S1x256, .f32⟩
  | 100 => ⟨S16x256, .f32⟩
  | 101 => ⟨S16x256, .f32⟩
  | 102 => ⟨S16x256, .f32⟩
  | 103 => ⟨S1x256, .f32⟩
  | 104 => ⟨S16x256, .f32⟩
  | 105 => ⟨S16x256, .f32⟩
  | 106 => ⟨S_, .f32⟩
  | 107 => ⟨S16x256, .f32⟩
  | 108 => ⟨S16x256, .f32⟩
  | 109 => ⟨S16x256, .f32⟩
  | 110 => ⟨S1x256, .f32⟩
  | 111 => ⟨S16x256, .f32⟩
  | 112 => ⟨S16x256, .f32⟩
  | 113 => ⟨S_, .f32⟩
  | 114 => ⟨S16x256, .f32⟩
  | 115 => ⟨S16x256, .f32⟩
  | 116 => ⟨S16x256, .f32⟩
  | 117 => ⟨S1x256, .f32⟩
  | 118 => ⟨S16x256, .f32⟩
  | 119 => ⟨S16x256, .f32⟩
  | 120 => ⟨S_, .f32⟩
  | 121 => ⟨S16x256, .f32⟩
  | 122 => ⟨S16x256, .f32⟩
  | 123 => ⟨S16x256, .f32⟩
  | 124 => ⟨S1x256, .f32⟩
  | 125 => ⟨S16x256, .f32⟩
  | 126 => ⟨S16x256, .f32⟩
  | 127 => ⟨S16x1x256x1, .f32⟩
  | _ => ⟨S16x64x256x256, .f32⟩

abbrev hbmTy0_1 (i : Nat) : BufTy := match i % 128 with
  | 0 => ⟨S16x1x256x1, .f32⟩
  | 1 => ⟨S_, .f32⟩
  | 2 => ⟨S16x1x256x1, .f32⟩
  | 3 => ⟨S16x1x256x1, .f32⟩
  | 4 => ⟨S16x64x256x256, .f32⟩
  | 5 => ⟨S16x64x256x256, .f32⟩
  | 6 => ⟨S16x64x256x256, .f32⟩
  | 7 => ⟨S16x64x256x256, .f32⟩
  | _ => ⟨S16x64x256x256, .f32⟩

abbrev hbmTy (i : Nat) : BufTy := match i / 128 with
  | 0 => hbmTy0_0 i
  | 1 => hbmTy0_1 i
  | _ => ⟨S16x64x256x256, .f32⟩

abbrev bufTy : (tb : Table) → Fin (tcTables nBuf tb) → BufTy
  | .hbm, ⟨i, _⟩ => hbmTy i
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call0_cst : Ref sig .tc := ⟨.hbm, 53, rfl⟩
abbrev main_call0_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call1_cst : Ref sig .tc := ⟨.hbm, 60, rfl⟩
abbrev main_call1_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call2_cst : Ref sig .tc := ⟨.hbm, 67, rfl⟩
abbrev main_call2_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call3_cst : Ref sig .tc := ⟨.hbm, 74, rfl⟩
abbrev main_call3_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call4_cst : Ref sig .tc := ⟨.hbm, 81, rfl⟩
abbrev main_call4_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call5_cst : Ref sig .tc := ⟨.hbm, 88, rfl⟩
abbrev main_call5_v0 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call6_cst : Ref sig .tc := ⟨.hbm, 95, rfl⟩
abbrev main_call6_v0 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call7_cst : Ref sig .tc := ⟨.hbm, 106, rfl⟩
abbrev main_call7_v0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call8_cst : Ref sig .tc := ⟨.hbm, 113, rfl⟩
abbrev main_call8_v0 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_call9_cst : Ref sig .tc := ⟨.hbm, 120, rfl⟩
abbrev main_call9_v0 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_4 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩

abbrev nD : Nat := 1
abbrev τ : Topo := Topo.v7x

variable {F : FTy → Type} [FloatOps F]

class Facts₀ : Prop where
  reducesTo_S16x64x256x256_S16x64_d2_3 : S16x64x256x256.ReducesTo [2, 3] S16x64
  h_S_ : 0 < S_.numel
  bcast_S16x64_S16x64x1x1_0_1 : S16x64.BroadcastsInDim S16x64x1x1 (![0, 1] : Fin 2 → Fin S16x64x1x1.rank)
  bcast_S_S16x64x1x1 : S_.BroadcastsInDim S16x64x1x1 (![] : Fin 0 → Fin S16x64x1x1.rank)
  bcast_S16x64x1x1_S16x64x256x256_0_1_2_3 : S16x64x1x1.BroadcastsInDim S16x64x256x256 (![0, 1, 2, 3] : Fin 4 → Fin S16x64x256x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S16x256_S16x1x256x1_0_2 : S16x256.BroadcastsInDim S16x1x256x1 (![0, 2] : Fin 2 → Fin S16x1x256x1.rank)
  bcast_S_S16x1x256x1 : S_.BroadcastsInDim S16x1x256x1 (![] : Fin 0 → Fin S16x1x256x1.rank)
  bcast_S16x1x256x1_S16x64x256x256_0_1_2_3 : S16x1x256x1.BroadcastsInDim S16x64x256x256 (![0, 1, 2, 3] : Fin 4 → Fin S16x64x256x256.rank)
  dot_S16x11_S11x256_S16x256_1_0_0_1_n_n_wf : DotDims.WF S16x11 S11x256 S16x256 [1] [0] [0] [1] [] []
  dot_S16x256_S256x256_S16x256_1_0_0_1_n_n_wf : DotDims.WF S16x256 S256x256 S16x256 [1] [0] [0] [1] [] []

variable [Facts₀]

def dot_S16x11_S11x256_S16x256_1_0_0_1_n_n : DotDims S16x11 S11x256 S16x256 where
  lhsContracting := [1]
  rhsContracting := [0]
  lhsNonContracting := [0]
  rhsNonContracting := [1]
  lhsBatch := []
  rhsBatch := []
  wf := dot_S16x11_S11x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

class Facts : Prop extends Facts₀ where

variable [Facts]
-- ==== Proof.KernelRun.lean ====
/-
  The idealized kernel's run, with its result named.

  The program is three segments: twelve host reshapes of the bias vectors into rows, the multilayer-perceptron
  region (one launch, whole-array blocks), and the normalisation region (32 grid points).  The buffer contents at
  the boundaries between segments are a fold from the launch memory: after the reshapes, then with the first
  region's two output arrays at what its write-backs leave, then with the second region's output array at what
  its write-backs leave.  Every weakly fair execution terminates, without a fault, with every unscoped buffer at
  the last boundary's contents; read at the argument arrays that gives "unchanged", and read at the result
  buffer it gives the second region's output array after its last grid point.  The statement below keeps that
  last reading in the post; the one after it names the array through the region's proof data.
-/
import proofs.«103759_g7868380086984_feedfinal_290_6_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result buffer at
    the last boundary's contents and the argument arrays as launched. -/
theorem run_result : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c),
       (h c _ (mem_uc main_arg18 (by decide))).trans (W3_main_arg18 m ρ c),
       (h c _ (mem_uc main_arg19 (by decide))).trans (W3_main_arg19 m ρ c),
       (h c _ (mem_uc main_arg20 (by decide))).trans (W3_main_arg20 m ρ c),
       (h c _ (mem_uc main_arg21 (by decide))).trans (W3_main_arg21 m ρ c),
       (h c _ (mem_uc main_arg22 (by decide))).trans (W3_main_arg22 m ρ c),
       (h c _ (mem_uc main_arg23 (by decide))).trans (W3_main_arg23 m ρ c),
       (h c _ (mem_uc main_arg24 (by decide))).trans (W3_main_arg24 m ρ c),
       (h c _ (mem_uc main_arg25 (by decide))).trans (W3_main_arg25 m ρ c)⟩)

/-- The result buffer is the normalisation region's output window (its window 3), so the last boundary's
    contents there are that window's array after the region's last write-back. -/
theorem result_arr (c : Dev nD) :
    W3 m ρ c (Proc.devRef .tc main_v0) = (dat1 (V2 m ρ) c).arrAt 3 cfg1.N :=
  W3_arr m ρ c 3

end Cert.KernelIdeal.RunValue

end
-- ==== Proof.Region0.lean ====
/-
  What the first region (the launch with no grid that runs the modulation network) leaves in its two output
  arrays, as terms of the arrays it is entered with.

  Every window of this launch is its whole array at block index 0, and the launch has one point.  So each input
  block is the input array itself; the body's one store into each output buffer goes through the whole-shape
  rectangle at zero offsets, so the buffer ends holding the store's payload; the one write-back then covers the
  whole output array.  The two output arrays therefore end holding the network's two results, computed from the
  entry contents of the 25 input arrays.
-/
import proofs.«103759_g7868380086984_feedfinal_290_6_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region0

open Cert.KernelIdeal Cert.KernelIdeal.Gen

-- the region's entry contents: a parameter
variable (V : (c : Dev nD) → (b : Ref sig .tc) → Buf (Elt Ideal) ((c : Thread nD τ).loc b))

/-- The zero offsets of a rank-2 and of a rank-3 access, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The scale branch's result, cast to [16, 1, 256], from the entry contents of the input arrays. -/
def gammaArr (c : Dev nD) : Vec Ideal S16x1x256 .f32 :=
  k0_pay1 (F := Ideal) (k0_pay4 (F := Ideal) (k0_pay3 (F := Ideal) (V c main_arg1) (V c main_arg2) (V c main_call0_v0) (V c main_arg4) (V c main_call0_v1) (V c main_arg6) (V c main_call0_v2) (V c main_arg8) (V c main_call0_v3)) (V c main_arg10) (V c main_call0_v4) (V c main_arg12) (V c main_call0_v5) (V c main_arg14) (V c main_call0_v6) (V c main_arg16) (V c main_call0_v7))

/-- The shift branch's result, cast to [16, 1, 256], from the entry contents of the input arrays. -/
def betaArr (c : Dev nD) : Vec Ideal S16x1x256 .f32 :=
  k0_pay2 (F := Ideal) (k0_pay5 (F := Ideal) (k0_pay3 (F := Ideal) (V c main_arg1) (V c main_arg2) (V c main_call0_v0) (V c main_arg4) (V c main_call0_v1) (V c main_arg6) (V c main_call0_v2) (V c main_arg8) (V c main_call0_v3)) (V c main_arg18)) (V c main_call0_v8) (V c main_arg20) (V c main_call0_v9) (V c main_arg22) (V c main_call0_v10) (V c main_arg24) (V c main_call0_v11)

/-! ## Each input block is its whole array: a whole array read through the whole-shape rectangle at zero offsets -/

theorem blk0_0 (c : Dev nD) (t : Fin cfg0.N) : (iblk0 V c 0 t : Vec Ideal S16x11 .f32) = V c main_arg1 := by
  unfold iblk0
  exact Memref.read_access_unit_zero (Elt Ideal) main_arg1 (off := fun a => win0_0.index t a * main_arg1.ty.shape.size a)
    (funext fun a => Nat.zero_mul _) _ (V c main_arg1)
theorem blk0_1 (c : Dev nD) (t : Fin cfg0.N) : (iblk0 V c 1 t : Vec Ideal S11x256 .f32) = V c main_arg2 := by
  unfold iblk0
  exact Memref.read_access_unit_zero (Elt Ideal) main_arg2 (off := fun a => win0_1.index t a * main_arg2.ty.shape.size a)
    (funext fun a => Nat.zero_mul _) _ (V c main_arg2)
theorem blk0_2 (c : Dev nD) (t : Fin cfg0.N) : (iblk0 V c 2 t : Vec Ideal S1x256 .f32) = V c main_call0_v0 := by
  unfold iblk0
  exact Memref.read_access_unit_zero (Elt Ideal) main_call0_v0 (off := fun a => win0_2.index t a * main_call0_v0.ty.shape.size a)
    (funext fun a => Nat.zero_mul _) _ (V c main_call0_v0)
theorem blk0_3 (c : Dev nD) (t : Fin cfg0.N) : (iblk0 V c 3 t : Vec Ideal S256x256 .f32) = V c main_arg4 := by
  unfold iblk0
  exact Memref.read_access_unit_zero (Elt Ideal) main_arg4 (off := fun a => win0_3.index t a * main_arg4.ty.shape.size a)
    (funext fun a => Nat.zero_mul _) _ (V c main_arg4)
theorem blk0_4 (c : Dev nD) (t : Fin cfg0.N) : (iblk0 V c 4 t : Vec Ideal S1x256 .f32) = V c main_call0_v1 := by
  unfold iblk0
  exact Memref.read_access_unit_zero (Elt Ideal) main_call0_v1 (off := fun a => win0_4.index t a * main_call0_v1.ty.shape.size a)
    (funext fun a => Nat.zero_mul _) _ (V c main_call0_v1)
theorem blk0_5 (c : Dev nD) (t : Fin cfg0.N) : (iblk0 V c 5 t : Vec Ideal S256x256 .f32) = V c main_arg6 := by
  unfold iblk0
  exact Memref.read_access_unit_zero (Elt Ideal) main_arg6 (off := fun a => win0_5.index t a * main_arg6.ty.shape.size a)
    (funext fun a => Nat.zero_mul _) _ (V c main_arg6)
theorem blk0_6 (c : Dev nD) (t : Fin cfg0.N) : (iblk0 V c 6 t : Vec Ideal S1x256 .f32) = V c main_call0_v2 := by
  unfold iblk0
  exact Memref.read_access_unit_zero (Elt Ideal) main_call0_v2 (off := fun a => win0_6.index t a * main_call0_v2.ty.shape.size a)
    (funext fun a => Nat.zero_mul _) _ (V c main_call0_v2)
theorem blk0_7 (c : Dev nD) (t : Fin cfg0.N) : (iblk0 V c 7 t : Vec Ideal S256x256 .f32) = V c main_arg8 := by
  unfold iblk0
  exact Memref.read_access_unit_zero (Elt Ideal) main_arg8 (off := fun a => win0_7.index t a * main_arg8.ty.shape.size a)
    (funext fun a => Nat.zero_mul _) _ (V c main_arg8)
theorem blk0_8 (c : Dev nD) (t : Fin cfg0.N) : (iblk0 V c 8 t : Vec Ideal S1x256 .f32) = V c main_call0_v3 := by
  unfold iblk0
  exact Memref.read_access_unit_zero (Elt Ideal) main_call0_v3 (off := fun a => win0_8.index t a * main_call0_v3.ty.shape.size a)
    (funext fun a => Nat.zero_mul _) _ (V c main_call0_v3)
theorem blk0_9 (c : Dev nD) (t : Fin cfg0.N) : (iblk0 V c 9 t : Vec Ideal S256x256 .f32) = V c main_arg10 := by
  unfold iblk0
  exact Memref.read_access_unit_zero (Elt Ideal) main_arg10 (off := fun a => win0_9.index t a * main_arg10.ty.shape.size a)
    (funext fun a => Nat.zero_mul _) _ (V c main_arg10)
theorem blk0_10 (c : Dev nD) (t : Fin cfg0.N) : (iblk0 V c 10 t : Vec Ideal S1x256 .f32) = V c main_call0_v4 := by
  unfold iblk0
  exact Memref.read_access_unit_zero (Elt Ideal) main_call0_v4 (off := fun a => win0_10.index t a * main_call0_v4.ty.shape.size a)
    (funext fun a => Nat.zero_mul _) _ (V c main_call0_v4)
theorem blk0_11 (c : Dev nD) (t : Fin cfg0.N) : (iblk0 V c 11 t : Vec Ideal S256x256 .f32) = V c main_arg12 := by
  unfold iblk0
  exact Memref.read_access_unit_zero (Elt Ideal) main_arg12 (off := fun a => win0_11.index t a * main_arg12.ty.shape.size a)
    (funext fun a => Nat.zero_mul _) _ (V c main_arg12)
theorem blk0_12 (c : Dev nD) (t : Fin cfg0.N) : (iblk0 V c 12 t : Vec Ideal S1x256 .f32) = V c main_call0_v5 := by
  unfold iblk0
  exact Memref.read_access_unit_zero (Elt Ideal) main_call0_v5 (off := fun a => win0_12.index t a * main_call0_v5.ty.shape.size a)
    (funext fun a => Nat.zero_mul _) _ (V c main_call0_v5)
theorem blk0_13 (c : Dev nD) (t : Fin cfg0.N) : (iblk0 V c 13 t : Vec Ideal S256x256 .f32) = V c main_arg14 := by
  unfold iblk0
  exact Memref.read_access_unit_zero (Elt Ideal) main_arg14 (off := fun a => win0_13.index t a * main_arg14.ty.shape.size a)
    (funext fun a => Nat.zero_mul _) _ (V c main_arg14)
theorem blk0_14 (c : Dev nD) (t : Fin cfg0.N) : (iblk0 V c 14 t : Vec Ideal S1x256 .f32) = V c main_call0_v6 := by
  unfold iblk0
  exact Memref.read_access_unit_zero (Elt Ideal) main_call0_v6 (off := fun a => win0_14.index t a * main_call0_v6.ty.shape.size a)
    (funext fun a => Nat.zero_mul _) _ (V c main_call0_v6)
theorem blk0_15 (c : Dev nD) (t : Fin cfg0.N) : (iblk0 V c 15 t : Vec Ideal S256x256 .f32) = V c main_arg16 := by
  unfold iblk0
  exact Memref.read_access_unit_zero (Elt Ideal) main_arg16 (off := fun a => win0_15.index t a * main_arg16.ty.shape.size a)
    (funext fun a => Nat.zero_mul _) _ (V c main_arg16)
theorem blk0_16 (c : Dev nD) (t : Fin cfg0.N) : (iblk0 V c 16 t : Vec Ideal S1x256 .f32) = V c main_call0_v7 := by
  unfold iblk0
  exact Memref.read_access_unit_zero (Elt Ideal) main_call0_v7 (off := fun a => win0_16.index t a * main_call0_v7.ty.shape.size a)
    (funext fun a => Nat.zero_mul _) _ (V c main_call0_v7)
theorem blk0_17 (c : Dev nD) (t : Fin cfg0.N) : (iblk0 V c 17 t : Vec Ideal S256x256 .f32) = V c main_arg18 := by
  unfold iblk0
  exact Memref.read_access_unit_zero (Elt Ideal) main_arg18 (off := fun a => win0_17.index t a * main_arg18.ty.shape.size a)
    (funext fun a => Nat.zero_mul _) _ (V c main_arg18)
theorem blk0_18 (c : Dev nD) (t : Fin cfg0.N) : (iblk0 V c 18 t : Vec Ideal S1x256 .f32) = V c main_call0_v8 := by
  unfold iblk0
  exact Memref.read_access_unit_zero (Elt Ideal) main_call0_v8 (off := fun a => win0_18.index t a * main_call0_v8.ty.shape.size a)
    (funext fun a => Nat.zero_mul _) _ (V c main_call0_v8)
theorem blk0_19 (c : Dev nD) (t : Fin cfg0.N) : (iblk0 V c 19 t : Vec Ideal S256x256 .f32) = V c main_arg20 := by
  unfold iblk0
  exact Memref.read_access_unit_zero (Elt Ideal) main_arg20 (off := fun a => win0_19.index t a * main_arg20.ty.shape.size a)
    (funext fun a => Nat.zero_mul _) _ (V c main_arg20)
theorem blk0_20 (c : Dev nD) (t : Fin cfg0.N) : (iblk0 V c 20 t : Vec Ideal S1x256 .f32) = V c main_call0_v9 := by
  unfold iblk0
  exact Memref.read_access_unit_zero (Elt Ideal) main_call0_v9 (off := fun a => win0_20.index t a * main_call0_v9.ty.shape.size a)
    (funext fun a => Nat.zero_mul _) _ (V c main_call0_v9)
theorem blk0_21 (c : Dev nD) (t : Fin cfg0.N) : (iblk0 V c 21 t : Vec Ideal S256x256 .f32) = V c main_arg22 := by
  unfold iblk0
  exact Memref.read_access_unit_zero (Elt Ideal) main_arg22 (off := fun a => win0_21.index t a * main_arg22.ty.shape.size a)
    (funext fun a => Nat.zero_mul _) _ (V c main_arg22)
theorem blk0_22 (c : Dev nD) (t : Fin cfg0.N) : (iblk0 V c 22 t : Vec Ideal S1x256 .f32) = V c main_call0_v10 := by
  unfold iblk0
  exact Memref.read_access_unit_zero (Elt Ideal) main_call0_v10 (off := fun a => win0_22.index t a * main_call0_v10.ty.shape.size a)
    (funext fun a => Nat.zero_mul _) _ (V c main_call0_v10)
theorem blk0_23 (c : Dev nD) (t : Fin cfg0.N) : (iblk0 V c 23 t : Vec Ideal S256x256 .f32) = V c main_arg24 := by
  unfold iblk0
  exact Memref.read_access_unit_zero (Elt Ideal) main_arg24 (off := fun a => win0_23.index t a * main_arg24.ty.shape.size a)
    (funext fun a => Nat.zero_mul _) _ (V c main_arg24)
theorem blk0_24 (c : Dev nD) (t : Fin cfg0.N) : (iblk0 V c 24 t : Vec Ideal S1x256 .f32) = V c main_call0_v11 := by
  unfold iblk0
  exact Memref.read_access_unit_zero (Elt Ideal) main_call0_v11 (off := fun a => win0_24.index t a * main_call0_v11.ty.shape.size a)
    (funext fun a => Nat.zero_mul _) _ (V c main_call0_v11)

/-! ## The two outputs -/

/-- What the one write-back of output 25 writes: the scale branch's result. The buffer after the body is the
    body's one store through the whole-shape rectangle at zero offsets, so it is the store's payload; the
    payload's loads are whole-shape loads of the input blocks, which are the input arrays. -/
theorem flushed_gamma (c : Dev nD) (t : Fin cfg0.N) :
    (dat0 V c).flushed 25 t = ((cfg0.win 25).blk t).view.read (Elt Ideal) (gammaArr V c) := by
  show (cfg0.win 25).cut (grid0.coords t) ((dat0 V c).after 25 t) = _
  rw [after0_25]
  unfold out0_25
  rw [View.canon_unit_zero hz3]
  simp only [View.ld_unit_zero (S := S16x11) hz2, View.ld_unit_zero (S := S11x256) hz2, View.ld_unit_zero (S := S1x256) hz2,
    View.ld_unit_zero (S := S256x256) hz2]
  simp only [blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t, blk0_16 V c t]
  exact (Memref.read_access_unit_zero (Elt Ideal) main_call0_v12_0 (off := fun a => win0_25.index t a * main_call0_v12_0.ty.shape.size a)
    (funext fun a => Nat.zero_mul _) _ (gammaArr V c)).symm

/-- Output array 25 ends holding the scale branch's result: the one point's block is the whole array. -/
theorem final_gamma (c : Dev nD) : (dat0 V c).arrAt 25 cfg0.N = gammaArr V c :=
  (dat0 V c).arrAt_eq_of_cover 25 (gammaArr V c) (fun t _ => flushed_gamma V c t) fun i =>
    ⟨t0_0, flush0_25 t0_0, by
      show i ∈ ((View.whole main_call0_v12_0).slice (win0_25.rect t0_0)).set
      rw [View.set_slice_whole]
      exact View.mem_set_unit_zero (off := fun a => win0_25.index t0_0 a * main_call0_v12_0.ty.shape.size a)
        (funext fun a => Nat.zero_mul _) _ i⟩

/-- What the one write-back of output 26 writes: the shift branch's result. The buffer after the body is the
    body's one store through the whole-shape rectangle at zero offsets, so it is the store's payload; the
    payload's loads are whole-shape loads of the input blocks, which are the input arrays. -/
theorem flushed_beta (c : Dev nD) (t : Fin cfg0.N) :
    (dat0 V c).flushed 26 t = ((cfg0.win 26).blk t).view.read (Elt Ideal) (betaArr V c) := by
  show (cfg0.win 26).cut (grid0.coords t) ((dat0 V c).after 26 t) = _
  rw [after0_26]
  unfold out0_26
  rw [View.canon_unit_zero hz3]
  simp only [View.ld_unit_zero (S := S16x11) hz2, View.ld_unit_zero (S := S11x256) hz2, View.ld_unit_zero (S := S1x256) hz2,
    View.ld_unit_zero (S := S256x256) hz2]
  simp only [blk0_0 V c t, blk0_1 V c t, blk0_2 V c t, blk0_3 V c t, blk0_4 V c t, blk0_5 V c t, blk0_6 V c t, blk0_7 V c t, blk0_8 V c t, blk0_17 V c t, blk0_18 V c t, blk0_19 V c t, blk0_20 V c t, blk0_21 V c t, blk0_22 V c t, blk0_23 V c t, blk0_24 V c t]
  exact (Memref.read_access_unit_zero (Elt Ideal) main_call0_v12_1 (off := fun a => win0_26.index t a * main_call0_v12_1.ty.shape.size a)
    (funext fun a => Nat.zero_mul _) _ (betaArr V c)).symm

/-- Output array 26 ends holding the shift branch's result: the one point's block is the whole array. -/
theorem final_beta (c : Dev nD) : (dat0 V c).arrAt 26 cfg0.N = betaArr V c :=
  (dat0 V c).arrAt_eq_of_cover 26 (betaArr V c) (fun t _ => flushed_beta V c t) fun i =>
    ⟨t0_0, flush0_26 t0_0, by
      show i ∈ ((View.whole main_call0_v12_1).slice (win0_26.rect t0_0)).set
      rw [View.set_slice_whole]
      exact View.mem_set_unit_zero (off := fun a => win0_26.index t0_0 a * main_call0_v12_1.ty.shape.size a)
        (funext fun a => Nat.zero_mul _) _ i⟩

end Cert.KernelIdeal.Region0

end
-- ==== Proof.LibPlaneSums.lean ====
/-
  Sums over the two trailing axes of an array ("plane sums"), read as iterated finite sums.

  A `vector.multi_reduction <add>` of an [a, b, c] array over its axes 1 and 2, and a host
  `stablehlo.reduce` with an add body of an [n, m, b, c] array over its axes 2 and 3, are both, at the
  exact (extended-real) reading, the sum of the source over every index whose kept coordinates are the
  result's.  Here that set of indices is put in bijection with the pairs (p, q) of coordinates on the two
  reduced axes, so the reduction at a kept index is the double sum over p and q of the source at
  (kept coordinates, p, q); the host's form has its initial value in front.  All statements are general in
  the extents.
-/
import Idealize.ShloMosaic.PureOps.Ideal.Laws
import Idealize.ShloMosaic.Lib.ValueIdx

namespace Idealize.ShloMosaic.PlaneSums

open Idealize.ShloMosaic Idealize.ShloMosaic.ValueIdx

variable {α : Type*} [AddCommMonoid α]

/-- Rank 3, axes 1 and 2 dropped: the indices of an [a, b, c] array whose first coordinate is `j` are the
    (j, p, q), so a sum over them is the double sum over p and q. -/
theorem sum_filter_drop_abc {a b c : ℕ} (h : (⟨3, ![a, b, c]⟩ : Shape).Reduces [1, 2] ⟨1, ![a]⟩)
    (x : (⟨3, ![a, b, c]⟩ : Shape).Idx → α) (j : Fin a) :
    ∑ i ∈ Finset.univ.filter (fun i => h.drop i = ix1 j), x i = ∑ p : Fin b, ∑ q : Fin c, x (ix3 j p q) := by
  have hd : ∀ i : (⟨3, ![a, b, c]⟩ : Shape).Idx, (h.drop i 0 : ℕ) = (i 0 : ℕ) := fun _ => rfl
  have back : ∀ i : (⟨3, ![a, b, c]⟩ : Shape).Idx, h.drop i = ix1 j → ix3 j (i 1) (i 2) = i := fun i hi => by
    have h0 : (i 0 : ℕ) = j.val := by rw [← hd i, hi]; rfl
    funext d
    match d with
    | ⟨0, _⟩ => exact Fin.ext h0.symm
    | ⟨1, _⟩ => rfl
    | ⟨2, _⟩ => rfl
  rw [← Fintype.sum_prod_type' (fun p q => x (ix3 j p q))]
  refine Finset.sum_nbij' (fun i => ((i 1 : Fin b), (i 2 : Fin c))) (fun pq => ix3 j pq.1 pq.2) ?_ ?_ ?_ ?_ ?_
  · intro i _; exact Finset.mem_univ _
  · intro pq _
    refine Finset.mem_filter.2 ⟨Finset.mem_univ _, funext fun d => ?_⟩
    match d with
    | ⟨0, _⟩ => exact Fin.ext (hd _)
  · intro i hi; exact back i (Finset.mem_filter.1 hi).2
  · intro pq _; rfl
  · intro i hi; exact congrArg x (back i (Finset.mem_filter.1 hi).2).symm

/-- Rank 4, axes 2 and 3 dropped: the indices of an [n, m, b, c] array whose first two coordinates are
    `(i, k)` are the (i, k, p, q). -/
theorem sum_filter_drop_nmbc {n m b c : ℕ} (h : (⟨4, ![n, m, b, c]⟩ : Shape).ReducesTo [2, 3] ⟨2, ![n, m]⟩)
    (x : (⟨4, ![n, m, b, c]⟩ : Shape).Idx → α) (i : Fin n) (k : Fin m) :
    ∑ y ∈ Finset.univ.filter (fun y => h.drop y = ix2 i k), x y = ∑ p : Fin b, ∑ q : Fin c, x (ix4 i k p q) := by
  have hd0 : ∀ y : (⟨4, ![n, m, b, c]⟩ : Shape).Idx, (h.drop y 0 : ℕ) = (y 0 : ℕ) := fun _ => rfl
  have hd1 : ∀ y : (⟨4, ![n, m, b, c]⟩ : Shape).Idx, (h.drop y 1 : ℕ) = (y 1 : ℕ) := fun _ => rfl
  have back : ∀ y : (⟨4, ![n, m, b, c]⟩ : Shape).Idx, h.drop y = ix2 i k → ix4 i k (y 2) (y 3) = y := fun y hy => by
    have h0 : (y 0 : ℕ) = i.val := by rw [← hd0 y, hy]; rfl
    have h1 : (y 1 : ℕ) = k.val := by rw [← hd1 y, hy]; rfl
    funext d
    match d with
    | ⟨0, _⟩ => exact Fin.ext h0.symm
    | ⟨1, _⟩ => exact Fin.ext h1.symm
    | ⟨2, _⟩ => rfl
    | ⟨3, _⟩ => rfl
  rw [← Fintype.sum_prod_type' (fun p q => x (ix4 i k p q))]
  refine Finset.sum_nbij' (fun y => ((y 2 : Fin b), (y 3 : Fin c))) (fun pq => ix4 i k pq.1 pq.2) ?_ ?_ ?_ ?_ ?_
  · intro y _; exact Finset.mem_univ _
  · intro pq _
    refine Finset.mem_filter.2 ⟨Finset.mem_univ _, funext fun d => ?_⟩
    match d with
    | ⟨0, _⟩ => exact Fin.ext (hd0 _)
    | ⟨1, _⟩ => exact Fin.ext (hd1 _)
  · intro y hy; exact back y (Finset.mem_filter.1 hy).2
  · intro pq _; rfl
  · intro y hy; exact congrArg x (back y (Finset.mem_filter.1 hy).2).symm

variable {φ : FTy}

/-- A float `vector.multi_reduction <add>` of an [a, b, c] array over axes 1 and 2, read exactly at `j`:
    the sum over the plane of the source at (j, p, q). -/
theorem multiReduction_add_planes {a b c : ℕ} (src : FVec Ideal ⟨3, ![a, b, c]⟩ φ) (acc : BitVec φ.bits)
    (h : (⟨3, ![a, b, c]⟩ : Shape).Reduces [1, 2] ⟨1, ![a]⟩) (hφ : FKind.Formats φ)
    (hacc : acc = FKind.add.neutral φ hφ) (j : Fin a) :
    multiReduction .add [1, 2] ⟨1, ![a]⟩ src acc h hφ hacc (ix1 j) = ∑ p : Fin b, ∑ q : Fin c, src (ix3 j p q) :=
  sum_filter_drop_abc h src j

/-- The host's `stablehlo.reduce` with an add body of an [n, m, b, c] array over axes 2 and 3, read exactly
    at `(i, k)`: the initial value plus the sum over the plane of the operand at (i, k, p, q). -/
theorem hostReduceAdd_planes {n m b c : ℕ} {u : Shape} (x : FVec Ideal ⟨4, ![n, m, b, c]⟩ φ) (init : u.Idx → Ideal φ)
    (h : (⟨4, ![n, m, b, c]⟩ : Shape).ReducesTo [2, 3] ⟨2, ![n, m]⟩) (hu : 0 < u.numel) (i : Fin n) (k : Fin m) :
    Host.reduceAdd x init h hu (ix2 i k)
      = init (Shape.Idx.first hu) + ∑ p : Fin b, ∑ q : Fin c, x (ix4 i k p q) := by
  show Ideal.hostReduceAdd h x (init (Shape.Idx.first hu)) (ix2 i k) = _
  unfold Ideal.hostReduceAdd
  rw [sum_filter_drop_nmbc h x i k]

end Idealize.ShloMosaic.PlaneSums
-- ==== Proof.LibPlaneLayouts.lean ====
/-
  Layouts of a per-channel and of a per-row quantity against an [a, b, c] block, read at an index.

  A normalisation over the (b, c) planes of an [a, b, c] block keeps one number per channel, as a vector [a]
  laid out as a column [a, 1, 1] and broadcast back over the block; a per-row modulation is one number per
  row, laid out as [1, b, 1] and broadcast over channels and columns.  The three readings, general in the
  extents and with every index written by its coordinates:

    [a] -> [a, 1, 1]          (shape cast)   at (i, u, v)  is the vector at i
    [a, 1, 1] -> [a, b, c]    (broadcast)    at (i, p, q)  is the column at (i, 0, 0)
    [1, b, 1] -> [a, b, c]    (broadcast)    at (i, p, q)  is the row-vector at (0, p, 0)
-/
import Idealize.ShloMosaic.Lib.Pipeline.Value
import Idealize.ShloMosaic.Lib.ValueIdx

namespace Idealize.ShloMosaic.PlaneLayouts

open Idealize.ShloMosaic Idealize.ShloMosaic.ValueIdx

variable {α : Type}

/-- An `[a]` vector cast to `[a, 1, 1]` reads, at `(i, u, v)`, the vector at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_one, Shape.rowMajor_val_three]
    show i.val = (i.val * 1 + u.val) * 1 + v.val
    rw [hu, hv]; omega)

/-- An `[a, 1, 1]` column broadcast to `[a, b, c]` reads, at `(i, p, q)`, the column at `(i, 0, 0)`. -/
theorem broadcastTo_a11_abc_apply {a b c : ℕ} (w : (⟨3, ![a, 1, 1]⟩ : Shape).Idx → α)
    (h : (⟨3, ![a, 1, 1]⟩ : Shape).Broadcasts ⟨3, ![a, b, c]⟩) (i : Fin a) (p : Fin b) (q : Fin c) :
    broadcastTo ⟨3, ![a, b, c]⟩ w h (ix3 i p q) = w (ix3 i (0 : Fin 1) (0 : Fin 1)) := by
  refine broadcastTo_apply w h (ix3 i p q) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, 1]` row-vector broadcast to `[a, b, c]` reads, at `(i, p, q)`, the row-vector at `(0, p, 0)`. -/
theorem broadcastTo_1b1_abc_apply {a b c : ℕ} (w : (⟨3, ![1, b, 1]⟩ : Shape).Idx → α)
    (h : (⟨3, ![1, b, 1]⟩ : Shape).Broadcasts ⟨3, ![a, b, c]⟩) (i : Fin a) (p : Fin b) (q : Fin c) :
    broadcastTo ⟨3, ![a, b, c]⟩ w h (ix3 i p q) = w (ix3 (0 : Fin 1) p (0 : Fin 1)) := by
  refine broadcastTo_apply w h (ix3 i p q) (ix3 (0 : Fin 1) p (0 : Fin 1)) fun ax => ?_
  match ax with
  | ⟨0, _⟩ => rfl
  | ⟨1, _⟩ =>
    show p.val = if b = 1 then 0 else p.val
    split
    · have := p.isLt; omega
    · rfl
  | ⟨2, _⟩ => rfl

end Idealize.ShloMosaic.PlaneLayouts
-- ==== Proof.NormBody.lean ====
/-
  The normalisation body at one grid point, read at an index, over the extended reals.

  The body loads a block `x0` of shape [1, 32, 256, 256] (32 channel planes of one sample) and two rows
  `x1`, `x2` of shape [1, 1, 256] (that sample's scale and shift, one number per row of a plane), and stores
  a block of the shape of `x0`.  With the block viewed as [32, 256, 256]:

    mean ch      = (sum over the plane ch) / 65536
    centred      = entry - mean ch
    var ch       = (sum over the plane of centred^2) / 65536
    rstd ch      = rsqrt (var ch + eps)
    stored entry = (centred * rstd ch) * (1 + x1 (0, 0, p)) + x2 (0, 0, p)        at (0, ch, p, q)

  The per-channel numbers travel as a vector [32], laid out as a column [32, 1, 1] and broadcast back over
  the block; the per-row numbers travel as [1, 256], transposed to [256, 1], laid out as [1, 256, 1] and
  broadcast over channels and columns.  Each layout is read at an index written by coordinates; the two
  plane sums are double sums over the row and the column.
-/
import proofs.«103759_g7868380086984_feedfinal_290_6_alg».proof.Proof.Gen.KernelIdeal.Skeleton
import proofs.«103759_g7868380086984_feedfinal_290_6_alg».proof.Proof.LibPlaneSums
import proofs.«103759_g7868380086984_feedfinal_290_6_alg».proof.Proof.LibPlaneLayouts
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.NormBody

open Cert.KernelIdeal Cert.KernelIdeal.Gen
open Idealize.ShloMosaic Idealize.ShloMosaic.ValueIdx Idealize.ShloMosaic.PlaneSums Idealize.ShloMosaic.PlaneLayouts

variable (x0 : Vec Ideal S1x32x256x256 .f32) (x1 x2 : Vec Ideal S1x1x256 .f32)

/-! ## The numbers -/

/-- The mean of the block's channel plane `ch`. -/
def mean (ch : Fin 32) : EReal :=
  Ideal.div (∑ p : Fin 256, ∑ q : Fin 256, x0 (ix4 (0 : Fin 1) ch p q)) (Ideal.ofBits .f32 0x47800000#32)

/-- An entry of the plane less the plane's mean. -/
def centred (ch : Fin 32) (p q : Fin 256) : EReal := x0 (ix4 (0 : Fin 1) ch p q) - mean x0 ch

/-- The plane's biased variance. -/
def var (ch : Fin 32) : EReal :=
  Ideal.div (∑ p : Fin 256, ∑ q : Fin 256, centred x0 ch p q * centred x0 ch p q) (Ideal.ofBits .f32 0x47800000#32)

/-- The plane's reciprocal standard deviation. -/
def rstd (ch : Fin 32) : EReal := Ideal.rsqrt (var x0 ch + Ideal.ofBits .f32 0x3727C5AC#32)

/-! ## The body's arrays -/

/-- The block as 32 planes. -/
def planes : FVec Ideal S32x256x256 .f32 := shapeCast S32x256x256 x0 shapeCasts_S1x32x256x256_S32x256x256

/-- A per-channel vector as a column divided by 65536: a plane sum turned into a plane mean. -/
def over65536 (s : FVec Ideal S32 .f32) : FVec Ideal S32x1x1 .f32 :=
  divf (shapeCast S32x1x1 s shapeCasts_S32_S32x1x1) (broadcast S32x1x1 (Scalar.ofBits .f32 0x47800000#32))

/-- The plane sums of an array of 32 planes. -/
def planeSums (v : FVec Ideal S32x256x256 .f32) : FVec Ideal S32 .f32 :=
  multiReduction .add [1, 2] S32 v 0x00000000#32 reduces_S32x256x256_S32 (.inl rfl) rfl

/-- The centred planes. -/
def centredPlanes : FVec Ideal S32x256x256 .f32 :=
  subf (planes x0) (broadcastTo S32x256x256 (over65536 (planeSums (planes x0))) broadcasts_S32x1x1_S32x256x256)

/-- The reciprocal standard deviations, as a column. -/
def rstdColumn : FVec Ideal S32x1x1 .f32 :=
  rsqrt (addf (over65536 (planeSums (mulf (centredPlanes x0) (centredPlanes x0))))
    (broadcast S32x1x1 (Scalar.ofBits .f32 0x3727C5AC#32)))

/-- A [1, 1, 256] row as a [256, 1] column. -/
def rowAsColumn (x : Vec Ideal S1x1x256 .f32) : FVec Ideal S256x1 .f32 :=
  transpose S256x1 [1, 0] (shapeCast S1x256 x shapeCasts_S1x1x256_S1x256) transposes_S1x256_p1_0_S256x1

/-- A [256, 1] column spread over channels and columns. -/
def overBlock (v : FVec Ideal S256x1 .f32) : FVec Ideal S32x256x256 .f32 :=
  broadcastTo S32x256x256 (shapeCast S1x256x1 v shapeCasts_S256x1_S1x256x1) broadcasts_S1x256x1_S32x256x256

/-- The payload is this composition of the arrays above (the printed sequence, with its intermediate values
    substituted). -/
theorem pay_eq :
    k1_pay1 x0 x1 x2
      = shapeCast S1x32x256x256
          (addf
            (mulf
              (mulf (centredPlanes x0) (broadcastTo S32x256x256 (rstdColumn x0) broadcasts_S32x1x1_S32x256x256))
              (overBlock (addf (broadcast S256x1 (Scalar.ofBits .f32 0x3F800000#32)) (rowAsColumn x1))))
            (overBlock (rowAsColumn x2)))
          shapeCasts_S32x256x256_S1x32x256x256 := rfl

/-! ## Each array at an index -/

theorem planes_apply (ch : Fin 32) (p q : Fin 256) : planes x0 (ix3 ch p q) = x0 (ix4 (0 : Fin 1) ch p q) :=
  shapeCast_1abc_abc_apply x0 _ ch p q

theorem planeSums_apply (v : FVec Ideal S32x256x256 .f32) (ch : Fin 32) :
    planeSums v (ix1 ch) = ∑ p : Fin 256, ∑ q : Fin 256, v (ix3 ch p q) :=
  multiReduction_add_planes v _ _ _ _ ch

theorem over65536_apply (s : FVec Ideal S32 .f32) (ch : Fin 32) (u v : Fin 1) :
    over65536 s (ix3 ch u v) = Ideal.div (s (ix1 ch)) (Ideal.ofBits .f32 0x47800000#32) := by
  show Ideal.div (shapeCast S32x1x1 s shapeCasts_S32_S32x1x1 (ix3 ch u v)) _ = _
  rw [shapeCast_a_a11_apply]
  rfl

theorem centredPlanes_apply (ch : Fin 32) (p q : Fin 256) : centredPlanes x0 (ix3 ch p q) = centred x0 ch p q := by
  show planes x0 (ix3 ch p q) - broadcastTo S32x256x256 (over65536 (planeSums (planes x0))) broadcasts_S32x1x1_S32x256x256 (ix3 ch p q) = _
  rw [broadcastTo_a11_abc_apply, over65536_apply, planeSums_apply, planes_apply]
  unfold centred mean
  refine congrArg (fun s => x0 (ix4 (0 : Fin 1) ch p q) - Ideal.div s _) ?_
  exact Finset.sum_congr rfl fun p' _ => Finset.sum_congr rfl fun q' _ => planes_apply x0 ch p' q'

theorem rstdColumn_apply (ch : Fin 32) (u v : Fin 1) : rstdColumn x0 (ix3 ch u v) = rstd x0 ch := by
  show Ideal.rsqrt (over65536 (planeSums (mulf (centredPlanes x0) (centredPlanes x0))) (ix3 ch u v)
    + Ideal.ofBits .f32 0x3727C5AC#32) = _
  rw [over65536_apply, planeSums_apply]
  unfold rstd var
  refine congrArg (fun s => Ideal.rsqrt (Ideal.div s _ + _)) ?_
  refine Finset.sum_congr rfl fun p' _ => Finset.sum_congr rfl fun q' _ => ?_
  show centredPlanes x0 (ix3 ch p' q') * centredPlanes x0 (ix3 ch p' q') = _
  rw [centredPlanes_apply]

theorem rowAsColumn_apply (x : Vec Ideal S1x1x256 .f32) (p : Fin 256) (u : Fin 1) :
    rowAsColumn x (ix2 p u) = x (ix3 (0 : Fin 1) u p) := by
  unfold rowAsColumn
  rw [transpose_ix2_apply, shapeCast_1ab_ab_apply]

theorem overBlock_apply (v : FVec Ideal S256x1 .f32) (ch : Fin 32) (p q : Fin 256) :
    overBlock v (ix3 ch p q) = v (ix2 p (0 : Fin 1)) := by
  unfold overBlock
  rw [broadcastTo_1b1_abc_apply, shapeCast_ab_1ab_apply]

/-- The stored entry. -/
theorem pay_apply (u : Fin 1) (ch : Fin 32) (p q : Fin 256) :
    k1_pay1 x0 x1 x2 (ix4 u ch p q)
      = (centred x0 ch p q * rstd x0 ch) * (Ideal.ofBits .f32 0x3F800000#32 + x1 (ix3 (0 : Fin 1) (0 : Fin 1) p))
          + x2 (ix3 (0 : Fin 1) (0 : Fin 1) p) := by
  rw [pay_eq, shapeCast_abc_1abc_apply]
  show (centredPlanes x0 (ix3 ch p q)
          * broadcastTo S32x256x256 (rstdColumn x0) broadcasts_S32x1x1_S32x256x256 (ix3 ch p q))
        * overBlock (addf (broadcast S256x1 (Scalar.ofBits .f32 0x3F800000#32)) (rowAsColumn x1)) (ix3 ch p q)
      + overBlock (rowAsColumn x2) (ix3 ch p q) = _
  rw [centredPlanes_apply, broadcastTo_a11_abc_apply, rstdColumn_apply, overBlock_apply, overBlock_apply,
    rowAsColumn_apply]
  show _ * (Ideal.ofBits .f32 0x3F800000#32 + rowAsColumn x1 (ix2 p (0 : Fin 1))) + _ = _
  rw [rowAsColumn_apply]

end Cert.KernelIdeal.NormBody

end
-- ==== Proof.Spec.lean ====
/-
  The function both programs compute, stated once over the extended reals.

  For activations `x` of shape [16, 64, 256, 256] and two modulation arrays `g`, `b` of shape [16, 256]
  (one row of 256 per sample), every (sample n, channel c) plane of 256 x 256 entries is normalised by its own
  mean and biased variance, and the normalised entry at (n, c, p, q) is scaled by `1 + g (n, p)` and shifted by
  `b (n, p)`: the modulation depends on the sample and on the ROW p only, not on the channel or the column.

    mean n c    = (sum over the plane of x) / 65536
    var n c     = (sum over the plane of (x - mean)^2) / 65536
    entry       = ((x - mean) * rsqrt (var + eps)) * (1 + g (n, p)) + b (n, p)

  The three literals stay the f32 words the programs print (65536, eps = f32 1e-5, 1): the same word stands on
  both sides, so none of them is ever evaluated.  Division and the reciprocal square root are the exact
  extended-real ones.  Coordinates are explicit `Fin`s of the literal extents.
-/
import Idealize.ShloMosaic.PureOps.Ideal
import Idealize.ShloMosaic.Lib.ValueIdx

noncomputable section

namespace Cert.PlaneNorm

open Idealize.ShloMosaic Idealize.ShloMosaic.ValueIdx

/-- Indices of the activations, [16, 64, 256, 256], and of a modulation array, [16, 256]. -/
abbrev XIdx : Type := (⟨4, ![16, 64, 256, 256]⟩ : Shape).Idx
abbrev MIdx : Type := (⟨2, ![16, 256]⟩ : Shape).Idx

/-- The sum of `f` over the 256 x 256 plane of sample `n`, channel `c`. -/
def planeSum (f : XIdx → EReal) (n : Fin 16) (c : Fin 64) : EReal :=
  ∑ p : Fin 256, ∑ q : Fin 256, f (ix4 n c p q)

/-- The plane's mean: its sum over 65536 (the f32 word of 65536). -/
def planeMean (x : XIdx → EReal) (n : Fin 16) (c : Fin 64) : EReal :=
  Ideal.div (planeSum x n c) (Ideal.ofBits .f32 0x47800000#32)

/-- An entry less its plane's mean. -/
def centred (x : XIdx → EReal) (n : Fin 16) (c : Fin 64) (p q : Fin 256) : EReal :=
  x (ix4 n c p q) - planeMean x n c

/-- The plane's biased variance: the mean of the squared centred entries. -/
def planeVar (x : XIdx → EReal) (n : Fin 16) (c : Fin 64) : EReal :=
  Ideal.div (∑ p : Fin 256, ∑ q : Fin 256, centred x n c p q * centred x n c p q) (Ideal.ofBits .f32 0x47800000#32)

/-- The reciprocal standard deviation, with the f32 word of 1e-5 under the root. -/
def planeRstd (x : XIdx → EReal) (n : Fin 16) (c : Fin 64) : EReal :=
  Ideal.rsqrt (planeVar x n c + Ideal.ofBits .f32 0x3727C5AC#32)

/-- The result at (n, c, p, q): the normalised entry, scaled by `1 + g (n, p)` and shifted by `b (n, p)`. -/
def entry (x : XIdx → EReal) (g b : MIdx → EReal) (n : Fin 16) (c : Fin 64) (p q : Fin 256) : EReal :=
  (centred x n c p q * planeRstd x n c) * (Ideal.ofBits .f32 0x3F800000#32 + g (ix2 n p)) + b (ix2 n p)

/-- The whole result array. -/
def result (x : XIdx → EReal) (g b : MIdx → EReal) : XIdx → EReal :=
  fun i => entry x g b (i 0) (i 1) (i 2) (i 3)

theorem result_ix4 (x : XIdx → EReal) (g b : MIdx → EReal) (n : Fin 16) (c : Fin 64) (p q : Fin 256) :
    result x g b (ix4 n c p q) = entry x g b n c p q := rfl

end Cert.PlaneNorm

end
-- ==== Proof.Region1.lean ====
/-
  The normalisation region: its output array as one function of the arrays it is entered with.

  The grid has 32 points; point t works on sample n = t / 2 and on the half cb = t % 2 of that sample's 64
  channels: it fetches the block [n, 32 cb .. 32 cb + 31, :, :] of the activations and the rows [n, 0, :] of the
  scale and shift arrays, and writes back the block [n, 32 cb .. 32 cb + 31, :, :] of the output.  A plane
  (n, c) lies wholly inside the block of point 2 n + c / 32, so the body's plane means and variances ARE the
  array's, and the 32 blocks tile the output: after the last point the output array is, everywhere, the
  specification's function of the entry arrays.

  Stated at any entry contents `V` (a parameter), over the extended reals.
-/
import proofs.«103759_g7868380086984_feedfinal_290_6_alg».proof.Proof.Gen.KernelIdeal.Frame
import proofs.«103759_g7868380086984_feedfinal_290_6_alg».proof.Proof.NormBody
import proofs.«103759_g7868380086984_feedfinal_290_6_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A [16, 1, 256] array (one row of 256 per sample) as the [16, 256] modulation array it holds. -/
def rowsOf (g3 : S16x1x256.Idx → EReal) : Cert.PlaneNorm.MIdx → EReal :=
  fun j => g3 (ix3 (j 0 : Fin 16) (0 : Fin 1) (j 1 : Fin 256))

theorem rowsOf_ix2 (g3 : S16x1x256.Idx → EReal) (n : Fin 16) (p : Fin 256) :
    rowsOf g3 (ix2 n p) = g3 (ix3 n (0 : Fin 1) p) := rfl

/-- The region's output array: the specification's function of the activations, scale rows and shift rows
    the region is entered with. -/
def outArr (c : Dev nD) : S16x64x256x256.Idx → EReal :=
  Cert.PlaneNorm.result (V c main_arg0) (rowsOf (V c main_call0_v12_0)) (rowsOf (V c main_call0_v12_1))

/-! ## The index maps, decided over the 32 grid points -/

theorem idx_facts : ∀ t : Fin cfg1.N,
    win1_0.index t (0 : Fin 4) = t.val / 2 ∧ win1_0.index t (1 : Fin 4) = t.val % 2
    ∧ win1_0.index t (2 : Fin 4) = 0 ∧ win1_0.index t (3 : Fin 4) = 0
    ∧ win1_3.index t (0 : Fin 4) = t.val / 2 ∧ win1_3.index t (1 : Fin 4) = t.val % 2
    ∧ win1_3.index t (2 : Fin 4) = 0 ∧ win1_3.index t (3 : Fin 4) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0 :=
  (by decide +kernel : ∀ t : Fin grid1.N, _)

/-! ## The blocks a point reads, as entries of the entry arrays -/

/-- Point `t`'s activation block at (0, ch, p, q) is the activations at (t / 2, 32 (t % 2) + ch, p, q). -/
theorem blk_x (c : Dev nD) (t : Fin cfg1.N) (ch : Fin 32) (p q : Fin 256) (n : Fin 16) (cc : Fin 64)
    (hn : n.val = t.val / 2) (hcc : cc.val = 32 * (t.val % 2) + ch.val) :
    (iblk1 V c 0 t : Vec Ideal S1x32x256x256 .f32) (ix4 (0 : Fin 1) ch p q)
      = (V c main_arg0 : S16x64x256x256.Idx → EReal) (ix4 n cc p q) := by
  obtain ⟨e0, e1, e2, e3, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 4) * 1 + 1 * 0 = n.val; rw [e0, hn]; omega
  | ⟨1, _⟩ => show win1_0.index t (1 : Fin 4) * 32 + 1 * ch.val = cc.val; rw [e1, hcc]; omega
  | ⟨2, _⟩ => show win1_0.index t (2 : Fin 4) * 256 + 1 * p.val = p.val; rw [e2]; omega
  | ⟨3, _⟩ => show win1_0.index t (3 : Fin 4) * 256 + 1 * q.val = q.val; rw [e3]; omega

/-- Point `t`'s scale row at (0, 0, p) is the scale array at (t / 2, 0, p). -/
theorem blk_g (c : Dev nD) (t : Fin cfg1.N) (p : Fin 256) (n : Fin 16) (hn : n.val = t.val / 2) :
    (iblk1 V c 1 t : Vec Ideal S1x1x256 .f32) (ix3 (0 : Fin 1) (0 : Fin 1) p)
      = (V c main_call0_v12_0 : S16x1x256.Idx → EReal) (ix3 n (0 : Fin 1) p) := by
  obtain ⟨-, -, -, -, -, -, -, -, e0, e1, e2, -⟩ := idx_facts t
  unfold iblk1
  rw [View.read_apply]
  show V c main_call0_v12_0 _ = V c main_call0_v12_0 _
  refine congrArg (V c main_call0_v12_0) (funext fun a => Fin.ext ?_)
  match a with
  | ⟨0, _⟩ => show win1_1.index t (0 : Fin 3) * 1 + 1 * 0 = n.val; rw [e0, hn]; omega
  | ⟨1, _⟩ => show win1_1.index t (1 : Fin 3) * 1 + 1 * 0 = 0; rw [e1]
  | ⟨2, _⟩ => show win1_1.index t (2 : Fin 3) * 256 + 1 * p.val = p.val; rw [e2]; omega

/-- Point `t`'s shift row at (0, 0, p) is the shift array at (t / 2, 0, p). -/
theorem blk_b (c : Dev nD) (t : Fin cfg1.N) (p : Fin 256) (n : Fin 16) (hn : n.val = t.val / 2) :
    (iblk1 V c 2 t : Vec Ideal S1x1x256 .f32) (ix3 (0 : Fin 1) (0 : Fin 1) p)
      = (V c main_call0_v12_1 : S16x1x256.Idx → EReal) (ix3 n (0 : Fin 1) p) := by
  obtain ⟨-, -, -, -, -, -, -, -, -, -, -, e0, e1, e2⟩ := idx_facts t
  unfold iblk1
  rw [View.read_apply]
  show V c main_call0_v12_1 _ = V c main_call0_v12_1 _
  refine congrArg (V c main_call0_v12_1) (funext fun a => Fin.ext ?_)
  match a with
  | ⟨0, _⟩ => show win1_2.index t (0 : Fin 3) * 1 + 1 * 0 = n.val; rw [e0, hn]; omega
  | ⟨1, _⟩ => show win1_2.index t (1 : Fin 3) * 1 + 1 * 0 = 0; rw [e1]
  | ⟨2, _⟩ => show win1_2.index t (2 : Fin 3) * 256 + 1 * p.val = p.val; rw [e2]; omega

/-- The output block of point `t` sits at (t / 2, 32 (t % 2) + ch, p, q). -/
theorem emb_out (t : Fin cfg1.N) (u : Fin 1) (ch : Fin 32) (p q : Fin 256) (n : Fin 16) (cc : Fin 64)
    (hn : n.val = t.val / 2) (hcc : cc.val = 32 * (t.val % 2) + ch.val) :
    ((cfg1.win 3).blk t).view.emb (ix4 u ch p q) = (ix4 n cc p q : S16x64x256x256.Idx) := by
  obtain ⟨-, -, -, -, e0, e1, e2, e3, -⟩ := idx_facts t
  have hu : u.val = 0 := by omega
  funext a
  apply Fin.ext
  match a with
  | ⟨0, _⟩ => show win1_3.index t (0 : Fin 4) * 1 + 1 * u.val = n.val; rw [e0, hn, hu]; omega
  | ⟨1, _⟩ => show win1_3.index t (1 : Fin 4) * 32 + 1 * ch.val = cc.val; rw [e1, hcc]; omega
  | ⟨2, _⟩ => show win1_3.index t (2 : Fin 4) * 256 + 1 * p.val = p.val; rw [e2]; omega
  | ⟨3, _⟩ => show win1_3.index t (3 : Fin 4) * 256 + 1 * q.val = q.val; rw [e3]; omega

/-! ## What a point stores is the specification's entry -/

/-- If a block's channel plane `ch` is the array's plane (n, cc), and its two rows are the modulation arrays'
    rows of sample n, then the body's stored entry is the specification's: the plane's mean, variance and
    reciprocal deviation are sums over the same entries. -/
theorem entry_of_block (X : Cert.PlaneNorm.XIdx → EReal) (g b : Cert.PlaneNorm.MIdx → EReal)
    (x0 : Vec Ideal S1x32x256x256 .f32) (x1 x2 : Vec Ideal S1x1x256 .f32) (n : Fin 16) (cc : Fin 64) (ch : Fin 32)
    (h0 : ∀ p q : Fin 256, x0 (ix4 (0 : Fin 1) ch p q) = X (ix4 n cc p q))
    (h1 : ∀ p : Fin 256, x1 (ix3 (0 : Fin 1) (0 : Fin 1) p) = g (ix2 n p))
    (h2 : ∀ p : Fin 256, x2 (ix3 (0 : Fin 1) (0 : Fin 1) p) = b (ix2 n p)) (p q : Fin 256) :
    (NormBody.centred x0 ch p q * NormBody.rstd x0 ch) * (Ideal.ofBits .f32 0x3F800000#32 + x1 (ix3 (0 : Fin 1) (0 : Fin 1) p))
        + x2 (ix3 (0 : Fin 1) (0 : Fin 1) p)
      = Cert.PlaneNorm.entry X g b n cc p q := by
  have hm : NormBody.mean x0 ch = Cert.PlaneNorm.planeMean X n cc := by
    unfold NormBody.mean Cert.PlaneNorm.planeMean Cert.PlaneNorm.planeSum
    simp only [h0]
  have hc : ∀ p' q' : Fin 256, NormBody.centred x0 ch p' q' = Cert.PlaneNorm.centred X n cc p' q' := fun p' q' => by
    unfold NormBody.centred Cert.PlaneNorm.centred
    rw [h0, hm]
  have hv : NormBody.var x0 ch = Cert.PlaneNorm.planeVar X n cc := by
    unfold NormBody.var Cert.PlaneNorm.planeVar
    simp only [hc]
  have hr : NormBody.rstd x0 ch = Cert.PlaneNorm.planeRstd X n cc := by
    unfold NormBody.rstd Cert.PlaneNorm.planeRstd
    rw [hv]
  unfold Cert.PlaneNorm.entry
  rw [hc, hr, h1, h2]

/-- WHAT POINT `t` WRITES BACK is block `t` of the output array's function. -/
theorem flushed_eq (c : Dev nD) (t : Fin cfg1.N) :
    (dat1 V c).flushed 3 t = ((cfg1.win 3).blk t).view.read (Elt Ideal) (outArr V c) := by
  have hN : cfg1.N = 32 := N_1
  have ht : t.val < 32 := by have := t.isLt; omega
  show (cfg1.win 3).cut (grid1.coords t) ((dat1 V c).after 3 t) = _
  rw [after1_3]
  unfold out1_3
  rw [View.canon_unit_zero hz4]
  simp only [View.ld_unit_zero (S := S1x32x256x256) hz4, View.ld_unit_zero (S := S1x1x256) hz3]
  funext y
  obtain ⟨u, ch, p, q, rfl⟩ : ∃ (u : Fin 1) (ch : Fin 32) (p q : Fin 256), y = ix4 u ch p q :=
    ⟨y 0, y 1, y 2, y 3, eq_ix4 y⟩
  have hch : ch.val < 32 := ch.isLt
  let n : Fin 16 := ⟨t.val / 2, by omega⟩
  let cc : Fin 64 := ⟨32 * (t.val % 2) + ch.val, by omega⟩
  show k1_pay1 (iblk1 V c 0 t) (iblk1 V c 1 t) (iblk1 V c 2 t) (ix4 u ch p q)
    = outArr V c (((cfg1.win 3).blk t).view.emb (ix4 u ch p q))
  rw [emb_out t u ch p q n cc rfl rfl]
  refine (NormBody.pay_apply (iblk1 V c 0 t) (iblk1 V c 1 t) (iblk1 V c 2 t) u ch p q).trans ?_
  exact entry_of_block (V c main_arg0) (rowsOf (V c main_call0_v12_0)) (rowsOf (V c main_call0_v12_1))
    (iblk1 V c 0 t) (iblk1 V c 1 t) (iblk1 V c 2 t) n cc ch
    (fun p' q' => blk_x V c t ch p' q' n cc rfl rfl)
    (fun p' => blk_g V c t p' n rfl)
    (fun p' => blk_b V c t p' n rfl) p q

/-! ## The 32 blocks tile the output -/

/-- An index of the output array is in point `t`'s block iff each coordinate is in the block's range. -/
theorem mem_blk (t : Fin cfg1.N) (i : S16x64x256x256.Idx) :
    i ∈ ((cfg1.win 3).blk t).view.set ↔ ∀ a : Fin 4, win1_3.index t a * S1x32x256x256.size a ≤ (i a).val
      ∧ (i a).val < win1_3.index t a * S1x32x256x256.size a + S1x32x256x256.size a := by
  show i ∈ ((View.whole main_v0).slice (win1_3.rect t)).set ↔ _
  rw [View.set_slice_whole, Rect.mem_set_unit]
  exact Iff.rfl

/-- Every index (n, c, p, q) of the output is in the block of point 2 n + c / 32. -/
theorem cover (i : S16x64x256x256.Idx) :
    ∃ t : Fin cfg1.N, (cfg1.win 3).flush t = true ∧ i ∈ ((cfg1.win 3).blk t).view.set := by
  have hN : cfg1.N = 32 := N_1
  have h0 : (i 0).val < 16 := (i 0).isLt
  have h1 : (i 1).val < 64 := (i 1).isLt
  have h2 : (i 2).val < 256 := (i 2).isLt
  have h3 : (i 3).val < 256 := (i 3).isLt
  let t : Fin cfg1.N := ⟨2 * (i 0).val + (i 1).val / 32, by omega⟩
  have htv : t.val = 2 * (i 0).val + (i 1).val / 32 := rfl
  obtain ⟨-, -, -, -, e0, e1, e2, e3, -⟩ := idx_facts t
  refine ⟨t, flush1_3 t, ?_⟩
  rw [mem_blk]
  intro a
  match a with
  | ⟨0, _⟩ =>
    show win1_3.index t (0 : Fin 4) * 1 ≤ (i 0).val ∧ (i 0).val < win1_3.index t (0 : Fin 4) * 1 + 1
    rw [e0, htv]; omega
  | ⟨1, _⟩ =>
    show win1_3.index t (1 : Fin 4) * 32 ≤ (i 1).val ∧ (i 1).val < win1_3.index t (1 : Fin 4) * 32 + 32
    rw [e1, htv]; omega
  | ⟨2, _⟩ =>
    show win1_3.index t (2 : Fin 4) * 256 ≤ (i 2).val ∧ (i 2).val < win1_3.index t (2 : Fin 4) * 256 + 256
    rw [e2]; omega
  | ⟨3, _⟩ =>
    show win1_3.index t (3 : Fin 4) * 256 ≤ (i 3).val ∧ (i 3).val < win1_3.index t (3 : Fin 4) * 256 + 256
    rw [e3]; omega

/-- THE OUTPUT ARRAY after the region's last point: the specification's function of the entry arrays. -/
theorem final (c : Dev nD) : (dat1 V c).arrAt 3 cfg1.N = outArr V c :=
  (dat1 V c).arrAt_eq_of_cover 3 (outArr V c) (fun t _ => flushed_eq V c t) (cover)

end Cert.KernelIdeal.Region1

end
-- ==== Proof.EntryArrays.lean ====
/-
  What the kernel program's buffers hold when each of its two regions is entered, in terms of the launch memory.

  Before the first region the host stretch reshapes each of the twelve bias vectors, of shape [256], into a row
  of shape [1, 256], and writes nothing else.  So when the first region is entered the activations, the
  segmentation input and the twelve weight matrices hold what they held at launch, and each bias row holds its
  bias vector read through the reshape.  The first region writes only its two result arrays, the two modulation
  arrays; so when the second region is entered the activations are still as launched, and each modulation array
  holds what the first region's write-backs leave in it.
-/
import proofs.«103759_g7868380086984_feedfinal_290_6_alg».proof.Proof.Gen.KernelIdeal.Frame
import Idealize.ShloMosaic.PureOps.Ideal
import Idealize.ShloMosaic.Lib.StableHlo.Run
import Idealize.ShloMosaic.Lib.Pipeline.Value

noncomputable section

namespace Cert.KernelIdeal.EntryArrays

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ### At the first region's entry: an array the host stretch does not write is as launched

  Each of the twelve reshapes writes one bias row; at any other buffer the contents pass through all twelve
  unchanged, back to the launch memory. -/

theorem V1_main_arg0 : V1 m ρ c main_arg0 = m ((c : Thread nD τ).loc main_arg0) := by
  show StableHlo.after hostOps0 (W0 m ρ c) (Proc.devRef .tc main_arg0) = _
  after_results
  all_goals rfl
theorem V1_main_arg1 : V1 m ρ c main_arg1 = m ((c : Thread nD τ).loc main_arg1) := by
  show StableHlo.after hostOps0 (W0 m ρ c) (Proc.devRef .tc main_arg1) = _
  after_results
  all_goals rfl
theorem V1_main_arg2 : V1 m ρ c main_arg2 = m ((c : Thread nD τ).loc main_arg2) := by
  show StableHlo.after hostOps0 (W0 m ρ c) (Proc.devRef .tc main_arg2) = _
  after_results
  all_goals rfl
theorem V1_main_arg4 : V1 m ρ c main_arg4 = m ((c : Thread nD τ).loc main_arg4) := by
  show StableHlo.after hostOps0 (W0 m ρ c) (Proc.devRef .tc main_arg4) = _
  after_results
  all_goals rfl
theorem V1_main_arg6 : V1 m ρ c main_arg6 = m ((c : Thread nD τ).loc main_arg6) := by
  show StableHlo.after hostOps0 (W0 m ρ c) (Proc.devRef .tc main_arg6) = _
  after_results
  all_goals rfl
theorem V1_main_arg8 : V1 m ρ c main_arg8 = m ((c : Thread nD τ).loc main_arg8) := by
  show StableHlo.after hostOps0 (W0 m ρ c) (Proc.devRef .tc main_arg8) = _
  after_results
  all_goals rfl
theorem V1_main_arg10 : V1 m ρ c main_arg10 = m ((c : Thread nD τ).loc main_arg10) := by
  show StableHlo.after hostOps0 (W0 m ρ c) (Proc.devRef .tc main_arg10) = _
  after_results
  all_goals rfl
theorem V1_main_arg12 : V1 m ρ c main_arg12 = m ((c : Thread nD τ).loc main_arg12) := by
  show StableHlo.after hostOps0 (W0 m ρ c) (Proc.devRef .tc main_arg12) = _
  after_results
  all_goals rfl
theorem V1_main_arg14 : V1 m ρ c main_arg14 = m ((c : Thread nD τ).loc main_arg14) := by
  show StableHlo.after hostOps0 (W0 m ρ c) (Proc.devRef .tc main_arg14) = _
  after_results
  all_goals rfl
theorem V1_main_arg16 : V1 m ρ c main_arg16 = m ((c : Thread nD τ).loc main_arg16) := by
  show StableHlo.after hostOps0 (W0 m ρ c) (Proc.devRef .tc main_arg16) = _
  after_results
  all_goals rfl
theorem V1_main_arg18 : V1 m ρ c main_arg18 = m ((c : Thread nD τ).loc main_arg18) := by
  show StableHlo.after hostOps0 (W0 m ρ c) (Proc.devRef .tc main_arg18) = _
  after_results
  all_goals rfl
theorem V1_main_arg20 : V1 m ρ c main_arg20 = m ((c : Thread nD τ).loc main_arg20) := by
  show StableHlo.after hostOps0 (W0 m ρ c) (Proc.devRef .tc main_arg20) = _
  after_results
  all_goals rfl
theorem V1_main_arg22 : V1 m ρ c main_arg22 = m ((c : Thread nD τ).loc main_arg22) := by
  show StableHlo.after hostOps0 (W0 m ρ c) (Proc.devRef .tc main_arg22) = _
  after_results
  all_goals rfl
theorem V1_main_arg24 : V1 m ρ c main_arg24 = m ((c : Thread nD τ).loc main_arg24) := by
  show StableHlo.after hostOps0 (W0 m ρ c) (Proc.devRef .tc main_arg24) = _
  after_results
  all_goals rfl

/-! ### At the first region's entry: bias row j is bias vector j, reshaped from [256] to [1, 256]

  Row j is written by the j-th reshape, from the bias vector's launch contents (no earlier operation writes
  the vector), and by no later one. -/

theorem V1_row_0 :
    (V1 m ρ c main_call0_v0 : S1x256.Idx → EReal)
      = shapeCast S1x256 (m ((c : Thread nD τ).loc main_arg3) : S256.Idx → EReal) shapeCasts_S256_S1x256 := by
  show StableHlo.after hostOps0 (W0 m ρ c) (Proc.devRef .tc main_call0_v0) = _
  after_results
  all_goals rfl
theorem V1_row_1 :
    (V1 m ρ c main_call0_v1 : S1x256.Idx → EReal)
      = shapeCast S1x256 (m ((c : Thread nD τ).loc main_arg5) : S256.Idx → EReal) shapeCasts_S256_S1x256 := by
  show StableHlo.after hostOps0 (W0 m ρ c) (Proc.devRef .tc main_call0_v1) = _
  after_results
  all_goals rfl
theorem V1_row_2 :
    (V1 m ρ c main_call0_v2 : S1x256.Idx → EReal)
      = shapeCast S1x256 (m ((c : Thread nD τ).loc main_arg7) : S256.Idx → EReal) shapeCasts_S256_S1x256 := by
  show StableHlo.after hostOps0 (W0 m ρ c) (Proc.devRef .tc main_call0_v2) = _
  after_results
  all_goals rfl
theorem V1_row_3 :
    (V1 m ρ c main_call0_v3 : S1x256.Idx → EReal)
      = shapeCast S1x256 (m ((c : Thread nD τ).loc main_arg9) : S256.Idx → EReal) shapeCasts_S256_S1x256 := by
  show StableHlo.after hostOps0 (W0 m ρ c) (Proc.devRef .tc main_call0_v3) = _
  after_results
  all_goals rfl
theorem V1_row_4 :
    (V1 m ρ c main_call0_v4 : S1x256.Idx → EReal)
      = shapeCast S1x256 (m ((c : Thread nD τ).loc main_arg11) : S256.Idx → EReal) shapeCasts_S256_S1x256 := by
  show StableHlo.after hostOps0 (W0 m ρ c) (Proc.devRef .tc main_call0_v4) = _
  after_results
  all_goals rfl
theorem V1_row_5 :
    (V1 m ρ c main_call0_v5 : S1x256.Idx → EReal)
      = shapeCast S1x256 (m ((c : Thread nD τ).loc main_arg13) : S256.Idx → EReal) shapeCasts_S256_S1x256 := by
  show StableHlo.after hostOps0 (W0 m ρ c) (Proc.devRef .tc main_call0_v5) = _
  after_results
  all_goals rfl
theorem V1_row_6 :
    (V1 m ρ c main_call0_v6 : S1x256.Idx → EReal)
      = shapeCast S1x256 (m ((c : Thread nD τ).loc main_arg15) : S256.Idx → EReal) shapeCasts_S256_S1x256 := by
  show StableHlo.after hostOps0 (W0 m ρ c) (Proc.devRef .tc main_call0_v6) = _
  after_results
  all_goals rfl
theorem V1_row_7 :
    (V1 m ρ c main_call0_v7 : S1x256.Idx → EReal)
      = shapeCast S1x256 (m ((c : Thread nD τ).loc main_arg17) : S256.Idx → EReal) shapeCasts_S256_S1x256 := by
  show StableHlo.after hostOps0 (W0 m ρ c) (Proc.devRef .tc main_call0_v7) = _
  after_results
  all_goals rfl
theorem V1_row_8 :
    (V1 m ρ c main_call0_v8 : S1x256.Idx → EReal)
      = shapeCast S1x256 (m ((c : Thread nD τ).loc main_arg19) : S256.Idx → EReal) shapeCasts_S256_S1x256 := by
  show StableHlo.after hostOps0 (W0 m ρ c) (Proc.devRef .tc main_call0_v8) = _
  after_results
  all_goals rfl
theorem V1_row_9 :
    (V1 m ρ c main_call0_v9 : S1x256.Idx → EReal)
      = shapeCast S1x256 (m ((c : Thread nD τ).loc main_arg21) : S256.Idx → EReal) shapeCasts_S256_S1x256 := by
  show StableHlo.after hostOps0 (W0 m ρ c) (Proc.devRef .tc main_call0_v9) = _
  after_results
  all_goals rfl
theorem V1_row_10 :
    (V1 m ρ c main_call0_v10 : S1x256.Idx → EReal)
      = shapeCast S1x256 (m ((c : Thread nD τ).loc main_arg23) : S256.Idx → EReal) shapeCasts_S256_S1x256 := by
  show StableHlo.after hostOps0 (W0 m ρ c) (Proc.devRef .tc main_call0_v10) = _
  after_results
  all_goals rfl
theorem V1_row_11 :
    (V1 m ρ c main_call0_v11 : S1x256.Idx → EReal)
      = shapeCast S1x256 (m ((c : Thread nD τ).loc main_arg25) : S256.Idx → EReal) shapeCasts_S256_S1x256 := by
  show StableHlo.after hostOps0 (W0 m ρ c) (Proc.devRef .tc main_call0_v11) = _
  after_results
  all_goals rfl

/-! ### At the second region's entry -/

/-- The activations are none of the first region's arrays, so they are as at its entry: as launched. -/
theorem V2_main_arg0 : V2 m ρ c main_arg0 = m ((c : Thread nD τ).loc main_arg0) :=
  (W2_of_ne m ρ c main_arg0 (by decide)).trans (V1_main_arg0 m ρ c)

/-- The first modulation array (the scale's) is the first region's array 25: it holds what the region's
    write-backs leave. -/
theorem V2_gamma : V2 m ρ c main_call0_v12_0 = (dat0 (V1 m ρ) c).arrAt 25 cfg0.N :=
  W2_arr m ρ c 25

/-- The second modulation array (the shift's) is the first region's array 26. -/
theorem V2_beta : V2 m ρ c main_call0_v12_1 = (dat0 (V1 m ρ) c).arrAt 26 cfg0.N :=
  W2_arr m ρ c 26

end Cert.KernelIdeal.EntryArrays

end
-- ==== Proof.MlpBridge.lean ====
/-
  The two programs' modulation networks are one formula.

  Both compute, from the segmentation map [16, 11], a shared trunk of four Linear+ReLU layers and then two
  branches of four layers each (the last layer of a branch has no ReLU), every layer being

      h  |->  max (h * W + bias broadcast over the 16 rows, 0).

  One program writes the product as a matrix product accumulated into a zero array, the bias as a [1, 256] row
  broadcast over the rows, and the zero of the ReLU as a scalar splat; the other writes the product as a host
  dot-general, the bias as a [256] array broadcast in two steps, and the zero as a rank-0 constant broadcast.
  At the extended reals these are the same arrays.  Three array equalities (product, bias, zero) are proved
  once, generic in the operands; the two networks are then identified layer by layer, without ever reading a
  matrix product at an index through more than one layer.
-/
import proofs.«103759_g7868380086984_feedfinal_290_6_alg».proof.Proof.Gen.KernelIdeal.Skeleton
import proofs.«103759_g7868380086984_feedfinal_290_6_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MlpBridge

open Idealize.ShloMosaic Idealize.SL.Sem Idealize.ShloMosaic.ValueIdx
open Cert.KernelIdeal Cert.KernelIdeal.Gen

/-- A bias [256] as the [1, 256] row the kernel reads. -/
abbrev row (v : FVec Ideal S256 .f32) : FVec Ideal S1x256 .f32 :=
  shapeCast S1x256 v shapeCasts_S256_S1x256

/-- A matrix product accumulated into the zero array is the host's dot-general: at every output index both are
    the sum, over the contraction index, of the operands' products. -/
theorem matmul_zero_eq_dotGeneral {sl sr so : Shape} {φ₁ φ₂ : FTy} (d : DotDims sl sr so)
    (l : FVec Ideal sl φ₁) (r : FVec Ideal sr φ₂) :
    matmul d none l r (constant (F := Ideal) so .f32 0x00000000#32) = Host.dotGeneral (F := Ideal) d none l r := by
  funext j
  show FloatOps.matmul d none l r (constant so .f32 0x00000000#32) j = FloatOps.dotGeneral d none .single l r j
  rw [Ideal.matmul_constant_zero_apply, Ideal.dotGeneral_apply]

/-- The bias row broadcast over the 16 rows, in either program's spelling, reads the bias at the column. -/
theorem bias_eq (v : FVec Ideal S256 .f32) :
    broadcastTo S16x256 (shapeCast S1x256 (row v) shapeCasts_S1x256_S1x256) broadcasts_S1x256_S16x256
      = broadcastInDim Cert.ReferenceIdeal.S16x256 ![0, 1] Cert.ReferenceIdeal.Gen.bcast_S1x256_S16x256_0_1
          (broadcastInDim Cert.ReferenceIdeal.S1x256 ![1] Cert.ReferenceIdeal.Gen.bcast_S256_S1x256_1 v) := by
  rw [shapeCast_self]
  funext i
  obtain ⟨p, q, rfl⟩ : ∃ (p : Fin 16) (q : Fin 256), i = ix2 p q := ⟨i 0, i 1, eq_ix2 i⟩
  rw [broadcastTo_1b_ab_apply]
  show shapeCast S1x256 v shapeCasts_S256_S1x256 (ix2 (0 : Fin 1) q) = _
  rw [shapeCast_a_1a_apply]
  rw [broadcastInDim_apply _ Cert.ReferenceIdeal.Gen.bcast_S1x256_S16x256_0_1 _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])]
  rw [broadcastInDim_apply _ Cert.ReferenceIdeal.Gen.bcast_S256_S1x256_1 v (ix2 (0 : Fin 1) q) (ix1 q) (fun a => match a with
    | ⟨0, _⟩ => by show q.val = if (256 : Nat) = 1 then 0 else q.val; rw [if_neg (by decide)])]

/-- The zero of the ReLU: a scalar splat, or a rank-0 constant broadcast, is the zero word at every index. -/
theorem zero_eq :
    broadcast S16x256 (Scalar.ofBits (F := Ideal) .f32 0x00000000#32)
      = broadcastInDim Cert.ReferenceIdeal.S16x256 ![] Cert.ReferenceIdeal.Gen.bcast_S_S16x256
          (constant (F := Ideal) Cert.ReferenceIdeal.S_ .f32 0x00000000#32) := by
  funext i
  rw [broadcastInDim_apply _ Cert.ReferenceIdeal.Gen.bcast_S_S16x256 _ i (fun a => a.elim0) (fun a => a.elim0)]
  rfl

/-- The two programs' dimension records of the [16, 11] x [11, 256] product are one record. -/
theorem dot11_eq :
    Cert.KernelIdeal.dot_S16x11_S11x256_S16x256_1_0_0_1_n_n = Cert.ReferenceIdeal.dot_S16x11_S11x256_S16x256_1_0_0_1_n_n := rfl

/-- The two programs' dimension records of the [16, 256] x [256, 256] product are one record. -/
theorem dot256_eq :
    Cert.KernelIdeal.dot_S16x256_S256x256_S16x256_1_0_0_1_n_n = Cert.ReferenceIdeal.dot_S16x256_S256x256_S16x256_1_0_0_1_n_n := rfl

/-- The first layer's product, in the two spellings. -/
theorem prod11_eq (h : FVec Ideal S16x11 .f32) (w : FVec Ideal S11x256 .f32) :
    matmul Cert.KernelIdeal.dot_S16x11_S11x256_S16x256_1_0_0_1_n_n none h w (constant (F := Ideal) S16x256 .f32 0x00000000#32)
      = Host.dotGeneral (F := Ideal) Cert.ReferenceIdeal.dot_S16x11_S11x256_S16x256_1_0_0_1_n_n none h w := by
  rw [matmul_zero_eq_dotGeneral, dot11_eq]

/-- A later layer's product, in the two spellings. -/
theorem prod256_eq (h : FVec Ideal S16x256 .f32) (w : FVec Ideal S256x256 .f32) :
    matmul Cert.KernelIdeal.dot_S16x256_S256x256_S16x256_1_0_0_1_n_n none h w (constant (F := Ideal) S16x256 .f32 0x00000000#32)
      = Host.dotGeneral (F := Ideal) Cert.ReferenceIdeal.dot_S16x256_S256x256_S16x256_1_0_0_1_n_n none h w := by
  rw [matmul_zero_eq_dotGeneral, dot256_eq]

section Networks

variable (seg : FVec Ideal S16x11 .f32) (tw0 : FVec Ideal S11x256 .f32)
  (tw1 tw2 tw3 gw0 gw1 gw2 gw3 bw0 bw1 bw2 bw3 : FVec Ideal S256x256 .f32)
  (tb0 tb1 tb2 tb3 gb0 gb1 gb2 gb3 bb0 bb1 bb2 bb3 : FVec Ideal S256 .f32)

/-- The shared trunk: four Linear+ReLU layers on the segmentation map. -/
theorem trunk_eq :
    k0_pay3 (F := Ideal) seg tw0 (row tb0) tw1 (row tb1) tw2 (row tb2) tw3 (row tb3)
      = (Cert.ReferenceIdeal.Read.val_main_v37 (F := Ideal) seg tw0 tb0 tw1 tb1 tw2 tb2 tw3 tb3 : FVec Ideal S16x256 .f32) := by
  unfold k0_pay3
  simp only [prod11_eq, prod256_eq, bias_eq, zero_eq]
  rfl

/-- The scale branch: three Linear+ReLU layers and a last Linear layer on the trunk. -/
theorem gamma_eq :
    k0_pay4 (F := Ideal) (k0_pay3 (F := Ideal) seg tw0 (row tb0) tw1 (row tb1) tw2 (row tb2) tw3 (row tb3)) gw0 (row gb0) gw1 (row gb1) gw2 (row gb2) gw3 (row gb3)
      = (Cert.ReferenceIdeal.Read.val_main_v56 (F := Ideal) seg tw0 tb0 tw1 tb1 tw2 tb2 tw3 tb3 gw0 gb0 gw1 gb1 gw2 gb2 gw3 gb3 : FVec Ideal S16x256 .f32) := by
  rw [trunk_eq]
  unfold k0_pay4
  simp only [prod256_eq, bias_eq, zero_eq]
  rfl

/-- The shift branch: the same four layers with its own weights, then the cast [16, 256] -> [16, 1, 256]. -/
theorem beta_eq :
    k0_pay2 (F := Ideal) (k0_pay5 (F := Ideal) (k0_pay3 (F := Ideal) seg tw0 (row tb0) tw1 (row tb1) tw2 (row tb2) tw3 (row tb3)) bw0) (row bb0) bw1 (row bb1) bw2 (row bb2) bw3 (row bb3)
      = shapeCast S16x1x256 (Cert.ReferenceIdeal.Read.val_main_v75 (F := Ideal) seg tw0 tb0 tw1 tb1 tw2 tb2 tw3 tb3 bw0 bb0 bw1 bb1 bw2 bb2 bw3 bb3 : FVec Ideal S16x256 .f32) shapeCasts_S16x256_S16x1x256 := by
  rw [trunk_eq]
  unfold k0_pay2 k0_pay5
  simp only [prod256_eq, bias_eq, zero_eq]
  rfl

end Networks

end Cert.KernelIdeal.MlpBridge

end
-- ==== Proof.KernelValue.lean ====
/-
  The idealized kernel's result array as the specification's function of the launch memory.

  The normalisation region leaves, in the result buffer, the specification's function of the arrays it is
  entered with (the activations, and the two [16, 1, 256] arrays the perceptron region wrote).  The
  activations are as launched: nothing before writes them.  The perceptron region's two arrays are its payload
  terms of the arrays IT is entered with: the segmentation map and the weight matrices as launched, and each
  bias as the [1, 256] row a host reshape made of it.  Those payload terms are the reference's perceptron
  stages (the layer-by-layer identification), cast from [16, 256] to [16, 1, 256]; reading the cast back at
  (n, 0, p) gives the [16, 256] modulation arrays at (n, p).
-/
import proofs.«103759_g7868380086984_feedfinal_290_6_alg».proof.Proof.Gen.KernelIdeal.Frame
import proofs.«103759_g7868380086984_feedfinal_290_6_alg».proof.Proof.KernelRun
import proofs.«103759_g7868380086984_feedfinal_290_6_alg».proof.Proof.Region0
import proofs.«103759_g7868380086984_feedfinal_290_6_alg».proof.Proof.Region1
import proofs.«103759_g7868380086984_feedfinal_290_6_alg».proof.Proof.EntryArrays
import proofs.«103759_g7868380086984_feedfinal_290_6_alg».proof.Proof.MlpBridge
import proofs.«103759_g7868380086984_feedfinal_290_6_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A [16, 256] array cast to [16, 1, 256] and read back by rows is the array: the cast keeps the row-major
    position, and (n, 0, p) has the position of (n, p). -/
theorem rowsOf_cast (v : FVec Ideal S16x256 .f32) :
    Region1.rowsOf (shapeCast S16x1x256 v shapeCasts_S16x256_S16x1x256) = v := by
  funext j
  obtain ⟨n, p, rfl⟩ : ∃ (n : Fin 16) (p : Fin 256), j = ix2 n p := ⟨j 0, j 1, eq_ix2 j⟩
  rw [Region1.rowsOf_ix2]
  refine shapeCast_apply v shapeCasts_S16x256_S16x1x256 (ix3 n (0 : Fin 1) p) (ix2 n p) ?_
  rw [Shape.rowMajor_val_two, Shape.rowMajor_val_three]
  show n.val * 256 + p.val = (n.val * 1 + 0) * 256 + p.val
  omega

/-- The scale payload ends with exactly that cast. -/
theorem pay1_eq (v : FVec Ideal S16x256 .f32) :
    k0_pay1 (F := Ideal) v = shapeCast S16x1x256 v shapeCasts_S16x256_S16x1x256 := rfl

/-- The perceptron region's first array, entered from the launch memory through the reshapes: the reference's
    scale stage of the launched arguments, cast to [16, 1, 256]. -/
theorem gamma_entry (c : Dev nD) :
    Region0.gammaArr (V1 m ρ) c
      = shapeCast S16x1x256 (Cert.ReferenceIdeal.Read.val_main_v56 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) : FVec Ideal S16x256 .f32)
          shapeCasts_S16x256_S16x1x256 := by
  unfold Region0.gammaArr
  simp only [EntryArrays.V1_main_arg1 m ρ c,
    EntryArrays.V1_main_arg2 m ρ c,
    EntryArrays.V1_main_arg4 m ρ c,
    EntryArrays.V1_main_arg6 m ρ c,
    EntryArrays.V1_main_arg8 m ρ c,
    EntryArrays.V1_main_arg10 m ρ c,
    EntryArrays.V1_main_arg12 m ρ c,
    EntryArrays.V1_main_arg14 m ρ c,
    EntryArrays.V1_main_arg16 m ρ c,
    EntryArrays.V1_main_arg18 m ρ c,
    EntryArrays.V1_main_arg20 m ρ c,
    EntryArrays.V1_main_arg22 m ρ c,
    EntryArrays.V1_main_arg24 m ρ c,
    EntryArrays.V1_row_0 m ρ c,
    EntryArrays.V1_row_1 m ρ c,
    EntryArrays.V1_row_2 m ρ c,
    EntryArrays.V1_row_3 m ρ c,
    EntryArrays.V1_row_4 m ρ c,
    EntryArrays.V1_row_5 m ρ c,
    EntryArrays.V1_row_6 m ρ c,
    EntryArrays.V1_row_7 m ρ c,
    EntryArrays.V1_row_8 m ρ c,
    EntryArrays.V1_row_9 m ρ c,
    EntryArrays.V1_row_10 m ρ c,
    EntryArrays.V1_row_11 m ρ c]
  rw [MlpBridge.gamma_eq, pay1_eq]

/-- Its second array: the reference's shift stage, cast likewise. -/
theorem beta_entry (c : Dev nD) :
    Region0.betaArr (V1 m ρ) c
      = shapeCast S16x1x256 (Cert.ReferenceIdeal.Read.val_main_v75 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) : FVec Ideal S16x256 .f32)
          shapeCasts_S16x256_S16x1x256 := by
  unfold Region0.betaArr
  simp only [EntryArrays.V1_main_arg1 m ρ c,
    EntryArrays.V1_main_arg2 m ρ c,
    EntryArrays.V1_main_arg4 m ρ c,
    EntryArrays.V1_main_arg6 m ρ c,
    EntryArrays.V1_main_arg8 m ρ c,
    EntryArrays.V1_main_arg10 m ρ c,
    EntryArrays.V1_main_arg12 m ρ c,
    EntryArrays.V1_main_arg14 m ρ c,
    EntryArrays.V1_main_arg16 m ρ c,
    EntryArrays.V1_main_arg18 m ρ c,
    EntryArrays.V1_main_arg20 m ρ c,
    EntryArrays.V1_main_arg22 m ρ c,
    EntryArrays.V1_main_arg24 m ρ c,
    EntryArrays.V1_row_0 m ρ c,
    EntryArrays.V1_row_1 m ρ c,
    EntryArrays.V1_row_2 m ρ c,
    EntryArrays.V1_row_3 m ρ c,
    EntryArrays.V1_row_4 m ρ c,
    EntryArrays.V1_row_5 m ρ c,
    EntryArrays.V1_row_6 m ρ c,
    EntryArrays.V1_row_7 m ρ c,
    EntryArrays.V1_row_8 m ρ c,
    EntryArrays.V1_row_9 m ρ c,
    EntryArrays.V1_row_10 m ρ c,
    EntryArrays.V1_row_11 m ρ c]
  rw [MlpBridge.beta_eq]

/-- THE RESULT BUFFER after the run: the specification's function of the launched activations and of the
    reference's two perceptron stages of the launched segmentation map, weights and biases. -/
theorem result_eq (c : Dev nD) :
    W3 m ρ c (Proc.devRef .tc main_v0)
      = Cert.PlaneNorm.result (m ((c : Thread nD τ).loc main_arg0))
          (Cert.ReferenceIdeal.Read.val_main_v56 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
          (Cert.ReferenceIdeal.Read.val_main_v75 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [RunValue.result_arr, Region1.final (V2 m ρ) c]
  unfold Region1.outArr
  rw [EntryArrays.V2_main_arg0 m ρ c, EntryArrays.V2_gamma m ρ c, EntryArrays.V2_beta m ρ c,
    Region0.final_gamma (V1 m ρ) c, Region0.final_beta (V1 m ρ) c, gamma_entry m ρ c, beta_entry m ρ c,
    rowsOf_cast, rowsOf_cast]

end Cert.KernelIdeal.KernelValue

end
-- ==== Proof.RefValue.lean ====
/-
  The reference program's result, read entry by entry, is the plane normalisation of the specification.

  The reference computes, for each (sample n, channel c), the plane's sum, divides it by 65536 to get the
  mean, subtracts the mean, squares, sums the squares over the plane, divides by 65536 to get the biased
  variance, adds eps, takes the reciprocal square root, multiplies the centred entry by it, and finally
  multiplies by 1 + g (n, p) and adds b (n, p), where g and b are the two modulation arrays (each the last
  layer of a small dense network on the segmentation input; they are kept as opaque values here).  Every
  step is a pointwise operation or a broadcast, read at the index (n, c, p, q), except the two plane sums,
  which are read as double sums over the plane.  No algebraic law is used: the terms are matched literally,
  the only rewriting being that the sums' initial value, the zero word, is the extended real 0.
-/
import proofs.«103759_g7868380086984_feedfinal_290_6_alg».proof.Proof.Gen.ReferenceIdeal.Read
import proofs.«103759_g7868380086984_feedfinal_290_6_alg».proof.Proof.Spec
import proofs.«103759_g7868380086984_feedfinal_290_6_alg».proof.Proof.LibPlaneSums
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Idealize.ShloMosaic.PlaneSums Cert.PlaneNorm

/-- The activations: an array of extended reals over [16, 64, 256, 256]. -/
abbrev X : Type := (⟨S16x64x256x256, .f32⟩ : BufTy).Contents (Elt Ideal)
/-- A modulation array: extended reals over [16, 256]. -/
abbrev M : Type := (⟨S16x256, .f32⟩ : BufTy).Contents (Elt Ideal)

/-! ### The broadcasts' source indices at explicit coordinates -/

/-- [16, 64] into [16, 64, 1, 1]: the source of (n, c, ·, ·) is (n, c). -/
theorem idx1_ix4 (n : Fin 16) (c : Fin 64) (a b : Fin 1) : idx_main_v1 (ix4 n c a b) = ix2 n c :=
  funext fun d => Fin.ext (by match d with | ⟨0, _⟩ => rfl | ⟨1, _⟩ => rfl)
theorem idx8_ix4 (n : Fin 16) (c : Fin 64) (a b : Fin 1) : idx_main_v8 (ix4 n c a b) = ix2 n c :=
  funext fun d => Fin.ext (by match d with | ⟨0, _⟩ => rfl | ⟨1, _⟩ => rfl)

/-- [16, 64, 1, 1] into [16, 64, 256, 256]: the source of (n, c, p, q) is (n, c, 0, 0). -/
theorem idx4_ix4 (n : Fin 16) (c : Fin 64) (p q : Fin 256) :
    idx_main_v4 (ix4 n c p q) = ix4 n c (0 : Fin 1) (0 : Fin 1) :=
  funext fun d => Fin.ext (by match d with | ⟨0, _⟩ => rfl | ⟨1, _⟩ => rfl | ⟨2, _⟩ => rfl | ⟨3, _⟩ => rfl)
theorem idx11_ix4 (n : Fin 16) (c : Fin 64) (p q : Fin 256) :
    idx_main_v11 (ix4 n c p q) = ix4 n c (0 : Fin 1) (0 : Fin 1) :=
  funext fun d => Fin.ext (by match d with | ⟨0, _⟩ => rfl | ⟨1, _⟩ => rfl | ⟨2, _⟩ => rfl | ⟨3, _⟩ => rfl)
theorem idx16_ix4 (n : Fin 16) (c : Fin 64) (p q : Fin 256) :
    idx_main_v16 (ix4 n c p q) = ix4 n c (0 : Fin 1) (0 : Fin 1) :=
  funext fun d => Fin.ext (by match d with | ⟨0, _⟩ => rfl | ⟨1, _⟩ => rfl | ⟨2, _⟩ => rfl | ⟨3, _⟩ => rfl)

/-- [16, 1, 256, 1] into [16, 64, 256, 256]: the source of (n, c, p, q) is (n, 0, p, 0). -/
theorem idx80_ix4 (n : Fin 16) (c : Fin 64) (p q : Fin 256) :
    idx_main_v80 (ix4 n c p q) = ix4 n (0 : Fin 1) p (0 : Fin 1) :=
  funext fun d => Fin.ext (by match d with | ⟨0, _⟩ => rfl | ⟨1, _⟩ => rfl | ⟨2, _⟩ => rfl | ⟨3, _⟩ => rfl)
theorem idx82_ix4 (n : Fin 16) (c : Fin 64) (p q : Fin 256) :
    idx_main_v82 (ix4 n c p q) = ix4 n (0 : Fin 1) p (0 : Fin 1) :=
  funext fun d => Fin.ext (by match d with | ⟨0, _⟩ => rfl | ⟨1, _⟩ => rfl | ⟨2, _⟩ => rfl | ⟨3, _⟩ => rfl)

/-- [16, 256] into [16, 1, 256, 1]: the source of (n, ·, p, ·) is (n, p). -/
theorem idx76_ix4 (n : Fin 16) (a : Fin 1) (p : Fin 256) (b : Fin 1) : idx_main_v76 (ix4 n a p b) = ix2 n p :=
  funext fun d => Fin.ext (by match d with | ⟨0, _⟩ => rfl | ⟨1, _⟩ => rfl)
theorem idx77_ix4 (n : Fin 16) (a : Fin 1) (p : Fin 256) (b : Fin 1) : idx_main_v77 (ix4 n a p b) = ix2 n p :=
  funext fun d => Fin.ext (by match d with | ⟨0, _⟩ => rfl | ⟨1, _⟩ => rfl)

/-! ### The chain on the activations alone -/

/-- The mean of plane (n, c): the plane's sum (the reduction's initial value is 0) over 65536. -/
theorem mean_apply (x0 : X) (n : Fin 16) (c : Fin 64) (a b : Fin 1) :
    val_main_v3 (F := Ideal) x0 (ix4 n c a b) = planeMean x0 n c := by
  rw [val_main_v3_apply, val_main_v1_apply, val_main_v2_apply, val_main_cst_0_apply, idx1_ix4]
  unfold val_main_v0
  rw [hostReduceAdd_planes, val_main_cst_apply, Ideal.hostDivf_def, Ideal.ofBits_def, Ideal.ofBits_def,
    Ideal.ofBits_zero_f32, zero_add]
  rfl

/-- The entry less its plane's mean (first copy, the one that is squared). -/
theorem centred5_apply (x0 : X) (n : Fin 16) (c : Fin 64) (p q : Fin 256) :
    val_main_v5 (F := Ideal) x0 (ix4 n c p q) = centred x0 n c p q := by
  rw [val_main_v5_apply, val_main_v4_apply, idx4_ix4, mean_apply, Ideal.subf_def]
  rfl

/-- The entry less its plane's mean (second copy, the one that is normalised). -/
theorem centred12_apply (x0 : X) (n : Fin 16) (c : Fin 64) (p q : Fin 256) :
    val_main_v12 (F := Ideal) x0 (ix4 n c p q) = centred x0 n c p q := by
  rw [val_main_v12_apply, val_main_v11_apply, idx11_ix4, mean_apply, Ideal.subf_def]
  rfl

/-- The squared centred entry. -/
theorem square_apply (x0 : X) (n : Fin 16) (c : Fin 64) (p q : Fin 256) :
    val_main_v6 (F := Ideal) x0 (ix4 n c p q) = centred x0 n c p q * centred x0 n c p q := by
  rw [val_main_v6_apply, centred5_apply, Ideal.mulf_def]

/-- The biased variance of plane (n, c): the plane's sum of squared centred entries over 65536. -/
theorem var_apply (x0 : X) (n : Fin 16) (c : Fin 64) (a b : Fin 1) :
    val_main_v10 (F := Ideal) x0 (ix4 n c a b) = planeVar x0 n c := by
  rw [val_main_v10_apply, val_main_v8_apply, val_main_v9_apply, val_main_cst_2_apply, idx8_ix4]
  unfold val_main_v7
  rw [hostReduceAdd_planes, val_main_cst_1_apply, Ideal.hostDivf_def, Ideal.ofBits_def, Ideal.ofBits_def,
    Ideal.ofBits_zero_f32, zero_add]
  unfold planeVar
  refine congrArg (fun s => Ideal.div s _) ?_
  exact Finset.sum_congr rfl fun p _ => Finset.sum_congr rfl fun q _ => square_apply x0 n c p q

/-- The reciprocal standard deviation of plane (n, c). -/
theorem rstd_apply (x0 : X) (n : Fin 16) (c : Fin 64) (a b : Fin 1) :
    val_main_v15 (F := Ideal) x0 (ix4 n c a b) = planeRstd x0 n c := by
  rw [val_main_v15_apply, val_main_v14_apply, val_main_v13_apply, val_main_cst_3_apply, var_apply,
    Ideal.hostUnary_rsqrt_def, Ideal.addf_def, Ideal.ofBits_def]
  rfl

/-- The normalised entry: the centred entry times its plane's reciprocal standard deviation. -/
theorem norm_apply (x0 : X) (n : Fin 16) (c : Fin 64) (p q : Fin 256) :
    val_main_v17 (F := Ideal) x0 (ix4 n c p q) = centred x0 n c p q * planeRstd x0 n c := by
  rw [val_main_v17_apply, val_main_v16_apply, idx16_ix4, rstd_apply, centred12_apply, Ideal.mulf_def]

/-! ### The whole result -/

/-- The reference's result is the specification's, with the two modulation arrays the program's own. -/
theorem result_eq (x0 : (⟨S16x64x256x256, .f32⟩ : BufTy).Contents (Elt Ideal)) (x1 : (⟨S16x11, .f32⟩ : BufTy).Contents (Elt Ideal)) (x2 : (⟨S11x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256x256, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) :
    val_main_v83 (F := Ideal) x0 x1 x2 x3 x4 x5 x6 x7 x8 x9 x10 x11 x12 x13 x14 x15 x16 x17 x18 x19 x20 x21 x22 x23 x24 x25
      = Cert.PlaneNorm.result x0 (val_main_v56 (F := Ideal) x1 x2 x3 x4 x5 x6 x7 x8 x9 x10 x11 x12 x13 x14 x15 x16 x17) (val_main_v75 (F := Ideal) x1 x2 x3 x4 x5 x6 x7 x8 x9 x18 x19 x20 x21 x22 x23 x24 x25) := by
  funext i
  obtain ⟨n, c, p, q, rfl⟩ : ∃ (n : Fin 16) (c : Fin 64) (p q : Fin 256), i = ix4 n c p q :=
    ⟨i 0, i 1, i 2, i 3, eq_ix4 i⟩
  rw [val_main_v83_apply, val_main_v81_apply, val_main_v82_apply, val_main_v80_apply, val_main_v79_apply,
    val_main_v78_apply, val_main_v77_apply, val_main_v76_apply, val_main_cst_4_apply,
    idx80_ix4, idx82_ix4, idx76_ix4, idx77_ix4]
  generalize val_main_v56 (F := Ideal) x1 x2 x3 x4 x5 x6 x7 x8 x9 x10 x11 x12 x13 x14 x15 x16 x17 = g
  generalize val_main_v75 (F := Ideal) x1 x2 x3 x4 x5 x6 x7 x8 x9 x18 x19 x20 x21 x22 x23 x24 x25 = b
  rw [norm_apply, Cert.PlaneNorm.result_ix4, Ideal.addf_def, Ideal.addf_def, Ideal.mulf_def, Ideal.ofBits_def]
  rfl

/-! ### The frame -/

open Idealize.ShloMosaic.TcCoe Idealize.SL.Sem Idealize.ShloMosaic.StableHlo in
/-- The reference runs to completion from any memory with zero counters and leaves each of its 26 argument
    arrays as it was: the run's statement less its first conjunct (the result's value). -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run (defs (F := Ideal)) _ _).mono (fun _ h c => (h c).2) (Cert.ReferenceIdeal.Value.run (F := Ideal) m ρ)

end Cert.ReferenceIdeal.RefValue

end
-- ==== Proof.lean ====
/-
  The certificate of the instance-normalisation kernel against its reference.

  The kernel runs two regions: a perceptron (thirteen Linear layers, ReLU after all but the last of each
  branch) that turns the segmentation map into a scale array and a shift array, one row of 256 numbers per
  sample, and a normalisation that, block by block, centres every (sample, channel) plane of the activations
  by its mean, divides by its standard deviation (biased variance plus eps under a reciprocal square root),
  scales row p of the plane by 1 + scale (n, p) and shifts it by shift (n, p).  The reference computes the
  same formula with whole-array host operations.

  Read at the extended reals the two programs are the same function of the arguments, index by index, and the
  proof only reads both sides: no algebraic law relates them, so the precondition (finite inputs) is never
  opened.  The steps, one module each: the function itself (Spec); two-axis plane sums as double sums
  (LibPlaneSums) and three layouts read at an index (LibPlaneLayouts); the normalisation body at an index
  (NormBody); the normalisation region's output array from its 32 blocks (Region1); the perceptron region's
  two arrays (Region0); what the regions are entered with, back to the launch memory (EntryArrays); the two
  programs' perceptrons identified layer by layer (MlpBridge); the kernel's run with its result named
  (KernelRun) and that result as the specification's function of the launch memory (KernelValue); the
  reference's result as the same function (RefValue).  Here: the three frames, the empty ledger, and the
  equality of the two results from memories that agree on the arguments.
-/
import proofs.«103759_g7868380086984_feedfinal_290_6_alg».proof.Defs
import proofs.«103759_g7868380086984_feedfinal_290_6_alg».proof.Proof.Gen.Kernel
import proofs.«103759_g7868380086984_feedfinal_290_6_alg».proof.Proof.Gen.Kernel.Skeleton
import proofs.«103759_g7868380086984_feedfinal_290_6_alg».proof.Proof.Gen.Kernel.Launch
import proofs.«103759_g7868380086984_feedfinal_290_6_alg».proof.Proof.Gen.Kernel.Points
import proofs.«103759_g7868380086984_feedfinal_290_6_alg».proof.Proof.Gen.Kernel.Frame
import proofs.«103759_g7868380086984_feedfinal_290_6_alg».proof.Proof.Gen.KernelIdeal
import proofs.«103759_g7868380086984_feedfinal_290_6_alg».proof.Proof.Gen.KernelIdeal.Skeleton
import proofs.«103759_g7868380086984_feedfinal_290_6_alg».proof.Proof.Gen.KernelIdeal.Launch
import proofs.«103759_g7868380086984_feedfinal_290_6_alg».proof.Proof.Gen.KernelIdeal.Points
import proofs.«103759_g7868380086984_feedfinal_290_6_alg».proof.Proof.Gen.KernelIdeal.Frame
import proofs.«103759_g7868380086984_feedfinal_290_6_alg».proof.Proof.Gen.ReferenceIdeal
import proofs.«103759_g7868380086984_feedfinal_290_6_alg».proof.Proof.Gen.ReferenceIdeal.Run
import proofs.«103759_g7868380086984_feedfinal_290_6_alg».proof.Proof.Gen.ReferenceIdeal.Read
import proofs.«103759_g7868380086984_feedfinal_290_6_alg».proof.Proof.Gen.Pre_finite_inputs
import proofs.«103759_g7868380086984_feedfinal_290_6_alg».proof.Proof.KernelRun
import proofs.«103759_g7868380086984_feedfinal_290_6_alg».proof.Proof.KernelValue
import proofs.«103759_g7868380086984_feedfinal_290_6_alg».proof.Proof.RefValue
import Idealize.ShloMosaic.Adequacy
import Idealize.ShloMosaic.Init

noncomputable section

namespace Cert.Proof

open Idealize.ShloMosaic Idealize.SL.Sem

/-- The printed kernel runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped from the post. -/
theorem frame_referenceIdeal : Cert.frame_ReferenceIdeal := fun m ρ _ => Cert.ReferenceIdeal.RefValue.frame m ρ

/-- The idealization rewrote nothing: the ledger is empty. -/
theorem preserves : Cert.preserves_Kernel_KernelIdeal := trivial

/-- The specification's function of the 26 arguments respects equality of the arguments, one by one. -/
theorem result_congr {x0 y0 : (⟨Cert.ReferenceIdeal.S16x64x256x256, .f32⟩ : BufTy).Contents (Elt Ideal)} {x1 y1 : (⟨Cert.ReferenceIdeal.S16x11, .f32⟩ : BufTy).Contents (Elt Ideal)} {x2 y2 : (⟨Cert.ReferenceIdeal.S11x256, .f32⟩ : BufTy).Contents (Elt Ideal)} {x3 y3 : (⟨Cert.ReferenceIdeal.S256, .f32⟩ : BufTy).Contents (Elt Ideal)} {x4 y4 : (⟨Cert.ReferenceIdeal.S256x256, .f32⟩ : BufTy).Contents (Elt Ideal)} {x5 y5 : (⟨Cert.ReferenceIdeal.S256, .f32⟩ : BufTy).Contents (Elt Ideal)} {x6 y6 : (⟨Cert.ReferenceIdeal.S256x256, .f32⟩ : BufTy).Contents (Elt Ideal)} {x7 y7 : (⟨Cert.ReferenceIdeal.S256, .f32⟩ : BufTy).Contents (Elt Ideal)} {x8 y8 : (⟨Cert.ReferenceIdeal.S256x256, .f32⟩ : BufTy).Contents (Elt Ideal)} {x9 y9 : (⟨Cert.ReferenceIdeal.S256, .f32⟩ : BufTy).Contents (Elt Ideal)} {x10 y10 : (⟨Cert.ReferenceIdeal.S256x256, .f32⟩ : BufTy).Contents (Elt Ideal)} {x11 y11 : (⟨Cert.ReferenceIdeal.S256, .f32⟩ : BufTy).Contents (Elt Ideal)} {x12 y12 : (⟨Cert.ReferenceIdeal.S256x256, .f32⟩ : BufTy).Contents (Elt Ideal)} {x13 y13 : (⟨Cert.ReferenceIdeal.S256, .f32⟩ : BufTy).Contents (Elt Ideal)} {x14 y14 : (⟨Cert.ReferenceIdeal.S256x256, .f32⟩ : BufTy).Contents (Elt Ideal)} {x15 y15 : (⟨Cert.ReferenceIdeal.S256, .f32⟩ : BufTy).Contents (Elt Ideal)} {x16 y16 : (⟨Cert.ReferenceIdeal.S256x256, .f32⟩ : BufTy).Contents (Elt Ideal)} {x17 y17 : (⟨Cert.ReferenceIdeal.S256, .f32⟩ : BufTy).Contents (Elt Ideal)} {x18 y18 : (⟨Cert.ReferenceIdeal.S256x256, .f32⟩ : BufTy).Contents (Elt Ideal)} {x19 y19 : (⟨Cert.ReferenceIdeal.S256, .f32⟩ : BufTy).Contents (Elt Ideal)} {x20 y20 : (⟨Cert.ReferenceIdeal.S256x256, .f32⟩ : BufTy).Contents (Elt Ideal)} {x21 y21 : (⟨Cert.ReferenceIdeal.S256, .f32⟩ : BufTy).Contents (Elt Ideal)} {x22 y22 : (⟨Cert.ReferenceIdeal.S256x256, .f32⟩ : BufTy).Contents (Elt Ideal)} {x23 y23 : (⟨Cert.ReferenceIdeal.S256, .f32⟩ : BufTy).Contents (Elt Ideal)} {x24 y24 : (⟨Cert.ReferenceIdeal.S256x256, .f32⟩ : BufTy).Contents (Elt Ideal)} {x25 y25 : (⟨Cert.ReferenceIdeal.S256, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) :
    Cert.PlaneNorm.result x0 (Cert.ReferenceIdeal.Read.val_main_v56 (F := Ideal) x1 x2 x3 x4 x5 x6 x7 x8 x9 x10 x11 x12 x13 x14 x15 x16 x17) (Cert.ReferenceIdeal.Read.val_main_v75 (F := Ideal) x1 x2 x3 x4 x5 x6 x7 x8 x9 x18 x19 x20 x21 x22 x23 x24 x25)
      = Cert.PlaneNorm.result y0 (Cert.ReferenceIdeal.Read.val_main_v56 (F := Ideal) y1 y2 y3 y4 y5 y6 y7 y8 y9 y10 y11 y12 y13 y14 y15 y16 y17) (Cert.ReferenceIdeal.Read.val_main_v75 (F := Ideal) y1 y2 y3 y4 y5 y6 y7 y8 y9 y18 y19 y20 y21 y22 y23 y24 y25) := by
  subst h0 h1 h2 h3 h4 h5 h6 h7 h8 h9 h10 h11 h12 h13 h14 h15 h16 h17 h18 h19 h20 h21 h22 h23 h24 h25
  rfl

/-- From memories that agree on the arguments both idealized programs end with the same result array: the
    specification's function of the activations and of the two perceptron stages of the other arguments. -/
theorem algebraic : Cert.algebraic_KernelIdeal_ReferenceIdeal := by
  intro m ρ m' ρ' _ hagree
  refine ⟨fun c => Cert.PlaneNorm.result (m ((c.tc : Thread Cert.KernelIdeal.nD Cert.KernelIdeal.τ).loc Cert.KernelIdeal.main_arg0))
      (Cert.ReferenceIdeal.Read.val_main_v56 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
      (Cert.ReferenceIdeal.Read.val_main_v75 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))), ?_, ?_⟩
  · exact (θ_run (Cert.KernelIdeal.defs (F := Ideal)) _ _).mono
      (fun r h c => ⟨(h c).1.trans (Cert.KernelIdeal.KernelValue.result_eq m ρ c), (h c).2⟩)
      (Cert.KernelIdeal.RunValue.run_result (F := Ideal) m ρ)
  · refine (θ_run (Cert.ReferenceIdeal.defs (F := Ideal)) _ _).mono (fun r h c => ⟨?_, (h c).2⟩)
      (Cert.ReferenceIdeal.Value.run (F := Ideal) m' ρ')
    obtain ⟨a0, a1, a2, a3, a4, a5, a6, a7, a8, a9, a10, a11, a12, a13, a14, a15, a16, a17, a18, a19, a20, a21, a22, a23, a24, a25⟩ := hagree c
    refine (h c).1.trans ((Cert.ReferenceIdeal.Read.val_main_v83_eq m' c).trans ((Cert.ReferenceIdeal.RefValue.result_eq _ _ _ _ _ _ _ _ _ _ _ _ _ _ _ _ _ _ _ _ _ _ _ _ _ _).trans ?_))
    exact result_congr a0 a1 a2 a3 a4 a5 a6 a7 a8 a9 a10 a11 a12 a13 a14 a15 a16 a17 a18 a19 a20 a21 a22 a23 a24 a25

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
